-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S32 .f32) (main_arg6 : FVec F S32x10 .f32) (main_arg7 : FVec F S10 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x10 .f32 := Host.absf main_arg6
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x32 .f32) (main_arg5 : FVec F S32 .f32) (main_arg6 : FVec F S32x10 .f32) (main_arg7 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S1x64 : Shape := ⟨2, ![1, 64]⟩
abbrev S10000x1 : Shape := ⟨2, ![10000, 1]⟩
abbrev S100000x32 : Shape := ⟨2, ![100000, 32]⟩
abbrev S10000x32 : Shape := ⟨2, ![10000, 32]⟩
abbrev S3200000x32 : Shape := ⟨2, ![3200000, 32]⟩
abbrev S1x32 : Shape := ⟨2, ![1, 32]⟩
abbrev S1x10 : Shape := ⟨2, ![1, 10]⟩
abbrev S100000x10 : Shape := ⟨2, ![100000, 10]⟩
abbrev S10000x10 : Shape := ⟨2, ![10000, 10]⟩
abbrev S10000 : Shape := ⟨1, ![10000]⟩

abbrev nBuf : Space → Nat
  | .hbm => 83
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x10, .f32⟩
  | .hbm, ⟨7, _⟩ => ⟨S10, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S3200000x1, .f32⟩
  | .hbm, ⟨54, _⟩ => ⟨S3200000x64, .f32⟩
  | .hbm, ⟨55, _⟩ => ⟨S3200000x64, .f32⟩
  | .hbm, ⟨56, _⟩ => ⟨S_, .f32⟩
  | .hbm, ⟨57, _⟩ => ⟨S100000x64, .f32⟩
  | .hbm, ⟨58, _⟩ => ⟨S3200000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x32, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x32, .f32⟩
  | .hbm, ⟨72, _⟩ => ⟨S3200000x1, .f32⟩
  | .hbm, ⟨73, _⟩ => ⟨S3200000x32, .f32⟩
  | .hbm, ⟨74, _⟩ => ⟨S3200000x32, .f32⟩
  | .hbm, ⟨75, _⟩ => ⟨S_, .f32⟩
  | .hbm, ⟨76, _⟩ => ⟨S100000x32, .f32⟩
  | .hbm, ⟨77, _⟩ => ⟨S3200000x1, .i32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S1x10, .f32⟩
  | .hbm, ⟨82, _⟩ => ⟨S100000x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S32x10, .f32⟩
  | .local _ .vmem, ⟨31, _⟩ => ⟨S1x10, .f32⟩
  | .local _ .vmem, ⟨32, _⟩ => ⟨S10000x10, .f32⟩
  | .local _ .vmem, ⟨33, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10_S1x10 : S10.ShapeCasts S1x10
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  inb_S10000x10_S10000x10_0_0 : ∀ a, (![0, 0] : Fin 2 → Nat) a + S10000x10.size a ≤ S10000x10.size a
  h_S10000x10 : 0 < S10000x10.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x10_S10000x10_1_0_0_1_n_n_wf : DotDims.WF S10000x32 S32x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S100000x32.size a
  hwx3_4 : ∀ i : grid3.Coords, EltTy.bits .f32 = 32 ∨ (Rect.block (s := S100000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x10.size a ≤ S32x10.size a
  hwx4_1 : ∀ i : grid4.Coords, EltTy.bits .f32 = 32 ∨ (Rect.block (s := S32x10) S32x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x10.size a ≤ S100000x10.size a
  hwx4_3 : ∀ i : grid4.Coords, EltTy.bits .f32 = 32 ∨ (Rect.block (s := S100000x10) S10000x10.size (cc4_transform_3 i) (hinb4_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S10000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S100000x10 : Shape := ⟨2, ![100000, 10]⟩
abbrev S1x10 : Shape := ⟨2, ![1, 10]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x32, .f32⟩
  | 5 => ⟨S32, .f32⟩
  | 6 => ⟨S32x10, .f32⟩
  | 7 => ⟨S10, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x64, .f32⟩
  | 51 => ⟨S3200000x1, .f32⟩
  | 52 => ⟨S3200000x64, .f32⟩
  | 53 => ⟨S3200000x64, .f32⟩
  | 54 => ⟨S_, .f32⟩
  | 55 => ⟨S100000x64, .f32⟩
  | 56 => ⟨S3200000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S_, .f32⟩
  | 71 => ⟨S3200000, .f32⟩
  | 72 => ⟨S_, .f32⟩
  | 73 => ⟨S100000, .f32⟩
  | 74 => ⟨S3200000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S3200000x1, .f32⟩
  | 109 => ⟨S3200000x32, .f32⟩
  | 110 => ⟨S3200000x32, .f32⟩
  | 111 => ⟨S_, .f32⟩
  | 112 => ⟨S100000x32, .f32⟩
  | 113 => ⟨S3200000x1, .i32⟩
  | 114 => ⟨S100000x32, .f32⟩
  | 115 => ⟨S100000, .f32⟩
  | 116 => ⟨S100000x1, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x10, .f32⟩
  | 127 => ⟨S1x10, .f32⟩
  | _ => ⟨S100000x128, .f32⟩

abbrev hbmTy0_1 (i : Nat) : BufTy := match i % 128 with
  | 0 => ⟨S100000x10, .f32⟩
  | 1 => ⟨S100000x10, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x10, .f32⟩
  | 9 => ⟨S100000x10, .f32⟩
  | 10 => ⟨S100000x10, .f32⟩
  | 11 => ⟨S_, .f32⟩
  | 12 => ⟨S100000, .f32⟩
  | 13 => ⟨S100000x1, .f32⟩
  | 14 => ⟨S100000x1, .f32⟩
  | 15 => ⟨S100000x10, .f32⟩
  | 16 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000x1_S100000x10_0_1 : S100000x1.BroadcastsInDim S100000x10 (![0, 1] : Fin 2 → Fin S100000x10.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x10_S100000x10_1_0_0_1_n_n_wf : DotDims.WF S100000x32 S32x10 S100000x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.KernelRun.lean ====
/-
  The idealized kernel program's run with its RESULT named.

  @main is nine segments: four stretches of host operations and five kernel regions. The buffers' contents at each
  boundary are a fold from the launch memory (`Gen.W0 … Gen.W9`: a stretch applies its operations, a region replaces
  its output array by what its write-backs leave). Every weakly fair execution terminates, and in the final state
  every unscoped buffer holds the last boundary's contents `Gen.W9`: in particular the result array `main_v61` holds
  `Gen.W9 … main_v61`, and the eight argument arrays, which no segment writes, hold their launch contents.
-/
import proofs.«161765_j77506979823837_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates without a fault, the result array ends at the last boundary's contents and the arguments
    end as launched. The segments, their chaining and the launch are the frame's; the final state is read at one more
    buffer. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunV

end
-- ==== Proof.RefForms.lean ====
/-
  The reference's three fused stages, each as ONE function of the arrays it reads, spelt with the reference program's
  own host operations (so that each is, by unfolding, the composition of the reference's corresponding lines).

  * `lin1`, `lin2`: a layer's dense product `x · W`.
  * `fin1`, `fin2`: what a layer does after the neighbour sum `agg`: add the self-loop term `h · d` (the node's own
    inverse degree `d`, copied along the row), add the bias (copied down the columns), clamp below at zero.
    `fin1At`, `fin2At` are the same from `d` already laid out as an `[N,1]` column and the bias as a `[1,F]` row.
  * `cls`: the classifier `x · Wc + bc` followed by the row-wise log-softmax, written as the reference writes it:
    subtract the row maximum, then subtract the logarithm of the row sum of exponentials. `clsAt` takes the bias as a row.
-/
import proofs.«161765_j77506979823837_1_alg».proof.Proof.Gen.ReferenceIdeal
import Idealize.ShloMosaic.PureOps.Ideal

noncomputable section

namespace Cert.ReferenceIdeal.Forms

open Cert.ReferenceIdeal Cert.ReferenceIdeal.Gen Idealize.ShloMosaic

/-- The first layer's dense product, `[100000,128] · [128,64]`. -/
def lin1 (x : FVec Ideal S100000x128 .f32) (w : FVec Ideal S128x64 .f32) : FVec Ideal S100000x64 .f32 :=
  Host.dotGeneral dot_S100000x128_S128x64_S100000x64_1_0_0_1_n_n none x w

/-- The second layer's dense product, `[100000,64] · [64,32]`. -/
def lin2 (x : FVec Ideal S100000x64 .f32) (w : FVec Ideal S64x32 .f32) : FVec Ideal S100000x32 .f32 :=
  Host.dotGeneral dot_S100000x64_S64x32_S100000x32_1_0_0_1_n_n none x w

/-- The first layer after the neighbour sum, from the self-loop weight as an `[N,1]` column `d2` and the bias as a `[1,64]`
    row `b2`: `max (agg + h · d2 + b2, 0)`, the column copied along each row and the row down each column. -/
def fin1At (agg h : FVec Ideal S100000x64 .f32) (d2 : FVec Ideal S100000x1 .f32) (b2 : FVec Ideal S1x64 .f32) : FVec Ideal S100000x64 .f32 :=
  maximumf
    (addf (addf agg (mulf h (broadcastInDim S100000x64 ![0, 1] bcast_S100000x1_S100000x64_0_1 d2)))
      (broadcastInDim S100000x64 ![0, 1] bcast_S1x64_S100000x64_0_1 b2))
    (broadcastInDim S100000x64 ![] bcast_S_S100000x64 (constant S_ .f32 0x00000000#32))

/-- The same from the per-node weight `d` and the per-feature bias `b` as vectors, as the reference holds them. -/
def fin1 (agg h : FVec Ideal S100000x64 .f32) (d : FVec Ideal S100000 .f32) (b : FVec Ideal S64 .f32) : FVec Ideal S100000x64 .f32 :=
  fin1At agg h (broadcastInDim S100000x1 ![0] bcast_S100000_S100000x1_0 d) (broadcastInDim S1x64 ![1] bcast_S64_S1x64_1 b)

/-- The second layer after the neighbour sum, the same at width 32. -/
def fin2At (agg h : FVec Ideal S100000x32 .f32) (d2 : FVec Ideal S100000x1 .f32) (b2 : FVec Ideal S1x32 .f32) : FVec Ideal S100000x32 .f32 :=
  maximumf
    (addf (addf agg (mulf h (broadcastInDim S100000x32 ![0, 1] bcast_S100000x1_S100000x32_0_1 d2)))
      (broadcastInDim S100000x32 ![0, 1] bcast_S1x32_S100000x32_0_1 b2))
    (broadcastInDim S100000x32 ![] bcast_S_S100000x32 (constant S_ .f32 0x00000000#32))

def fin2 (agg h : FVec Ideal S100000x32 .f32) (d : FVec Ideal S100000 .f32) (b : FVec Ideal S32 .f32) : FVec Ideal S100000x32 .f32 :=
  fin2At agg h (broadcastInDim S100000x1 ![0] bcast_S100000_S100000x1_0 d) (broadcastInDim S1x32 ![1] bcast_S32_S1x32_1 b)

/-- The classifier's logits `x · Wc + b2`, the bias as a `[1,10]` row copied down the columns. -/
def logitsAt (x : FVec Ideal S100000x32 .f32) (w : FVec Ideal S32x10 .f32) (b2 : FVec Ideal S1x10 .f32) : FVec Ideal S100000x10 .f32 :=
  addf (Host.dotGeneral dot_S100000x32_S32x10_S100000x10_1_0_0_1_n_n none x w)
    (broadcastInDim S100000x10 ![0, 1] bcast_S1x10_S100000x10_0_1 b2)

/-- A row's logits minus the row's maximum (the maximum taken from `-∞`, and once more against `-∞`). -/
def shifted (z : FVec Ideal S100000x10 .f32) : FVec Ideal S100000x10 .f32 :=
  subf z (broadcastInDim S100000x10 ![0, 1] bcast_S100000x1_S100000x10_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x10_S100000_d1 h_S_))))

/-- The row-wise log-softmax: the shifted logits minus the logarithm of the row sum of their exponentials. -/
def logSoftmax (z : FVec Ideal S100000x10 .f32) : FVec Ideal S100000x10 .f32 :=
  subf (shifted z) (broadcastInDim S100000x10 ![0, 1] bcast_S100000x1_S100000x10_0_1 (Host.log (broadcastInDim S100000x1 ![0] bcast_S100000_S100000x1_0
    (Host.reduceAdd (Host.exp (shifted z)) (constant S_ .f32 0x00000000#32) reducesTo_S100000x10_S100000_d1 h_S_))))

/-- The classifier stage from the bias as a row. -/
def clsAt (x : FVec Ideal S100000x32 .f32) (w : FVec Ideal S32x10 .f32) (b2 : FVec Ideal S1x10 .f32) : FVec Ideal S100000x10 .f32 :=
  logSoftmax (logitsAt x w b2)

/-- The classifier stage from the bias as a vector, as the reference holds it. -/
def cls (x : FVec Ideal S100000x32 .f32) (w : FVec Ideal S32x10 .f32) (b : FVec Ideal S10 .f32) : FVec Ideal S100000x10 .f32 :=
  clsAt x w (broadcastInDim S1x10 ![1] bcast_S10_S1x10_1 b)

end Cert.ReferenceIdeal.Forms

end
-- ==== Proof.RefStages.lean ====
/-
  The whole model as ONE function of the eight argument arrays, in the reference's own host operations.

  From the edge list `e : [2, E]` (row 0 the sources, row 1 the targets, E = 3200000) come the two index vectors
  `srcOf e`, `dstOf e`; `degInv` is the inverse square root of a node's degree counted with its self-loop (one plus the
  number of edges pointing at it, summed by a scatter of ones); an edge's weight `edgeNorm` is the product of that
  number at its two ends (each end looked up by a gather, a negative index first moved up by N: `wrap`); a "hop" gathers
  the rows of `h` at the sources, scales row `k` by edge `k`'s weight, and sums the rows into their targets. A layer is
  `fin (hop (x · W)) (x · W) (degInv²) b`; the model is the classifier stage of the second layer of the first.
-/
import proofs.«161765_j77506979823837_1_alg».proof.Proof.RefForms

noncomputable section

namespace Cert.ReferenceIdeal.Forms

open Cert.ReferenceIdeal Cert.ReferenceIdeal.Gen Idealize.ShloMosaic

/-- The edge list, and a vector of edge ends, as the host holds them (32-bit integers). -/
abbrev Edges : Type := (⟨S2x3200000, .i32⟩ : BufTy).Contents (Elt Ideal)
abbrev Ends : Type := (⟨S3200000, .i32⟩ : BufTy).Contents (Elt Ideal)
abbrev EndsCol : Type := (⟨S3200000x1, .i32⟩ : BufTy).Contents (Elt Ideal)

/-- Row 0 of the edge list: the sources. -/
def srcOf (e : Edges) : Ends :=
  shapeCast S3200000 (extractStridedSlice S1x3200000 ![0, 0] e slices_S2x3200000_S1x3200000_0_0) shapeCasts_S1x3200000_S3200000

/-- Row 1 of the edge list: the targets. -/
def dstOf (e : Edges) : Ends :=
  shapeCast S3200000 (extractStridedSlice S1x3200000 ![1, 0] e slices_S2x3200000_S1x3200000_1_0) shapeCasts_S1x3200000_S3200000

/-- A vector of edge ends as an `[E, 1]` index column. -/
def col (s : Ends) : EndsCol := broadcastInDim S3200000x1 ![0] bcast_S3200000_S3200000x1_0 s

/-- A negative index counts from the end: `N` is added to it. -/
def wrap (s : Ends) : Ends :=
  select (cmpi .slt s (broadcastInDim S3200000 ![] bcast_S_S3200000 (constantI S_ 32 0#32)))
    (addi s (broadcastInDim S3200000 ![] bcast_S_S3200000 (constantI S_ 32 100000#32))) s

/-- The inverse square root of each node's degree, the self-loop counted: ones summed into the targets, plus one. -/
def degInv (d : Ends) : FVec Ideal S100000 .f32 :=
  Host.rsqrt (addf
    (Host.scatterAdd scatter_S100000_S3200000x1_S3200000_n_0_0_1 (broadcastInDim S100000 ![] bcast_S_S100000 (constant S_ .f32 0x00000000#32))
      (col d) (broadcastInDim S3200000 ![] bcast_S_S3200000 (constant S_ .f32 0x3F800000#32)))
    (broadcastInDim S100000 ![] bcast_S_S100000 (constant S_ .f32 0x3F800000#32)))

/-- An edge's weight: `degInv` at its source times `degInv` at its target. -/
def edgeNorm (s d : Ends) : FVec Ideal S3200000 .f32 :=
  mulf (Host.gather gather_S100000_S3200000x1_S3200000_n_0_n_n_0_1_1 (degInv d) (col (wrap s)))
    (Host.gather gather_S100000_S3200000x1_S3200000_n_0_n_n_0_1_1 (degInv d) (col (wrap d)))

/-- The neighbour sum at width 64: row `k` of the gathered sources scaled by edge `k`'s weight, summed into its target. -/
def hop64 (h : FVec Ideal S100000x64 .f32) (s d : Ends) (nrm : FVec Ideal S3200000 .f32) : FVec Ideal S100000x64 .f32 :=
  Host.scatterAdd scatter_S100000x64_S3200000x1_S3200000x64_1_0_0_1 (broadcastInDim S100000x64 ![] bcast_S_S100000x64 (constant S_ .f32 0x00000000#32))
    (col d)
    (mulf (Host.gather gather_S100000x64_S3200000x1_S3200000x64_1_0_n_n_0_1_164 h (col (wrap s)))
      (broadcastInDim S3200000x64 ![0, 1] bcast_S3200000x1_S3200000x64_0_1 (broadcastInDim S3200000x1 ![0] bcast_S3200000_S3200000x1_0 nrm)))

/-- The neighbour sum at width 32. -/
def hop32 (h : FVec Ideal S100000x32 .f32) (s d : Ends) (nrm : FVec Ideal S3200000 .f32) : FVec Ideal S100000x32 .f32 :=
  Host.scatterAdd scatter_S100000x32_S3200000x1_S3200000x32_1_0_0_1 (broadcastInDim S100000x32 ![] bcast_S_S100000x32 (constant S_ .f32 0x00000000#32))
    (col d)
    (mulf (Host.gather gather_S100000x32_S3200000x1_S3200000x32_1_0_n_n_0_1_132 h (col (wrap s)))
      (broadcastInDim S3200000x32 ![0, 1] bcast_S3200000x1_S3200000x32_0_1 (broadcastInDim S3200000x1 ![0] bcast_S3200000_S3200000x1_0 nrm)))

/-- The first layer. -/
def layer1 (x : FVec Ideal S100000x128 .f32) (e : Edges) (w : FVec Ideal S128x64 .f32) (b : FVec Ideal S64 .f32) : FVec Ideal S100000x64 .f32 :=
  fin1 (hop64 (lin1 x w) (srcOf e) (dstOf e) (edgeNorm (srcOf e) (dstOf e))) (lin1 x w) (mulf (degInv (dstOf e)) (degInv (dstOf e))) b

/-- The second layer. -/
def layer2 (x : FVec Ideal S100000x64 .f32) (e : Edges) (w : FVec Ideal S64x32 .f32) (b : FVec Ideal S32 .f32) : FVec Ideal S100000x32 .f32 :=
  fin2 (hop32 (lin2 x w) (srcOf e) (dstOf e) (edgeNorm (srcOf e) (dstOf e))) (lin2 x w) (mulf (degInv (dstOf e)) (degInv (dstOf e))) b

/-- The model: two layers and the classifier stage. -/
def model (x : FVec Ideal S100000x128 .f32) (e : Edges) (w1 : FVec Ideal S128x64 .f32) (b1 : FVec Ideal S64 .f32)
    (w2 : FVec Ideal S64x32 .f32) (b2 : FVec Ideal S32 .f32) (wc : FVec Ideal S32x10 .f32) (bc : FVec Ideal S10 .f32) : FVec Ideal S100000x10 .f32 :=
  cls (layer2 (layer1 x e w1 b1) e w2 b2) wc bc

end Cert.ReferenceIdeal.Forms

end
-- ==== Proof.KernelStretch.lean ====
/-
  The idealized kernel program's host stretches, read.

  Between its five regions the kernel program runs the same host operations as the reference: from the edge list the
  source and target vectors, the inverse root degrees, the edge weights, the self-loop weights as a column; then, per
  layer, the neighbour sum of the region's product; and the bias vectors laid out as rows. Each stretch is read here
  from an ARBITRARY valuation of the buffers: what it leaves in each buffer a later segment reads is the corresponding
  function of `Forms` of what it found, and a buffer it does not write keeps its contents.
-/
import proofs.«161765_j77506979823837_1_alg».proof.Proof.Gen.KernelIdeal.Frame
import proofs.«161765_j77506979823837_1_alg».proof.Proof.RefStages
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.ReferenceIdeal.Forms

variable (Fv : Valuation τ sig (Elt Ideal))

/-! ## What each stretch writes, and that it leaves every other buffer alone -/

/-- The buffers the first stretch writes. -/
abbrev wr0 : List (Ref sig .tc) :=
  [main_v0, main_v1, main_v2, main_v3, main_cst, main_v4, main_cst_0, main_v5, main_v6, main_v7, main_cst_1, main_v8, main_v9, main_v10,
   main_c, main_v11, main_v12, main_c_2, main_v13, main_v14, main_v15, main_v16, main_v17, main_c_3, main_v18, main_v19, main_c_4, main_v20,
   main_v21, main_v22, main_v23, main_v24, main_v25, main_v26, main_v27]
/-- The buffers the second stretch (before the first finalize region) writes. -/
abbrev wr1 : List (Ref sig .tc) :=
  [main_c_5, main_v29, main_v30, main_c_6, main_v31, main_v32, main_v33, main_v34, main_v35, main_v36, main_v37, main_v38, main_cst_7,
   main_v39, main_v40, main_v41, main_v42]
/-- The buffers the third stretch (before the second finalize region) writes. -/
abbrev wr3 : List (Ref sig .tc) :=
  [main_c_8, main_v45, main_v46, main_c_9, main_v47, main_v48, main_v49, main_v50, main_v51, main_v52, main_v53, main_v54, main_cst_10,
   main_v55, main_v56, main_v57, main_v58]
/-- The last stretch writes the classifier's bias row. -/
abbrev wr4 : List (Ref sig .tc) := [main_v60]

theorem writes0 : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
theorem writes1 : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
theorem writes3 : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
theorem writes4 : (hostOps4 : List (HloOp τ sig (Elt Ideal))).Forall fun op => op.writes ⊆ (wr4.map (Proc.devRef (τ := τ) .tc)).toFinset := by
  simp only [List.Forall, StableHlo.reshape_writes, Finset.singleton_subset_iff, List.mem_toFinset]
  exact List.mem_map_of_mem (by decide)

theorem pass0 (r : Ref sig .tc) (h : r ∉ wr0) : after hostOps0 Fv (Proc.devRef .tc r) = Fv (Proc.devRef .tc r) :=
  after_of_writes_sub hostOps0 Fv writes0 h
theorem pass1 (r : Ref sig .tc) (h : r ∉ wr1) : after hostOps1 Fv (Proc.devRef .tc r) = Fv (Proc.devRef .tc r) :=
  after_of_writes_sub hostOps1 Fv writes1 h
theorem pass3 (r : Ref sig .tc) (h : r ∉ wr3) : after hostOps3 Fv (Proc.devRef .tc r) = Fv (Proc.devRef .tc r) :=
  after_of_writes_sub hostOps3 Fv writes3 h
theorem pass4 (r : Ref sig .tc) (h : r ∉ wr4) : after hostOps4 Fv (Proc.devRef .tc r) = Fv (Proc.devRef .tc r) :=
  after_of_writes_sub hostOps4 Fv writes4 h

/-! ## What each stretch leaves in the buffers read later -/

/-- The sources: row 0 of the edge list. -/
theorem out0_src : after hostOps0 Fv (Proc.devRef .tc main_v1) = srcOf (Fv (Proc.devRef .tc main_arg1)) := by
  after_results; rfl
/-- The targets: row 1 of the edge list. -/
theorem out0_dst : after hostOps0 Fv (Proc.devRef .tc main_v3) = dstOf (Fv (Proc.devRef .tc main_arg1)) := by
  after_results; rfl
attribute [local irreducible] Host.scatterAdd Host.gather Host.rsqrt in
set_option maxHeartbeats 4000000 in
/-- The edge weights. -/
theorem out0_norm : after hostOps0 Fv (Proc.devRef .tc main_v25)
    = edgeNorm (srcOf (Fv (Proc.devRef .tc main_arg1))) (dstOf (Fv (Proc.devRef .tc main_arg1))) := by
  after_results_simp; rfl
attribute [local irreducible] Host.scatterAdd Host.gather Host.rsqrt in
set_option maxHeartbeats 4000000 in
/-- The self-loop weights, the square of the inverse root degree, as an `[N, 1]` column. -/
theorem out0_selfCol : after hostOps0 Fv (Proc.devRef .tc main_v27)
    = shapeCast S100000x1 (mulf (degInv (dstOf (Fv (Proc.devRef .tc main_arg1)))) (degInv (dstOf (Fv (Proc.devRef .tc main_arg1))))) shapeCasts_S100000_S100000x1 := by
  after_results_simp; rfl

attribute [local irreducible] Host.scatterAdd Host.gather Host.rsqrt in
set_option maxHeartbeats 4000000 in
/-- The first layer's neighbour sum, and its bias as a row. -/
theorem out1_agg : after hostOps1 Fv (Proc.devRef .tc main_v41)
    = hop64 (Fv (Proc.devRef .tc main_v28)) (Fv (Proc.devRef .tc main_v1)) (Fv (Proc.devRef .tc main_v3)) (Fv (Proc.devRef .tc main_v25)) := by
  after_results_simp; rfl
theorem out1_biasRow : after hostOps1 Fv (Proc.devRef .tc main_v42) = shapeCast S1x64 (Fv (Proc.devRef .tc main_arg3)) shapeCasts_S64_S1x64 := by
  after_results; rfl

attribute [local irreducible] Host.scatterAdd Host.gather Host.rsqrt in
set_option maxHeartbeats 4000000 in
/-- The second layer's neighbour sum, and its bias as a row. -/
theorem out3_agg : after hostOps3 Fv (Proc.devRef .tc main_v57)
    = hop32 (Fv (Proc.devRef .tc main_v44)) (Fv (Proc.devRef .tc main_v1)) (Fv (Proc.devRef .tc main_v3)) (Fv (Proc.devRef .tc main_v25)) := by
  after_results_simp; rfl
theorem out3_biasRow : after hostOps3 Fv (Proc.devRef .tc main_v58) = shapeCast S1x32 (Fv (Proc.devRef .tc main_arg5)) shapeCasts_S32_S1x32 := by
  after_results; rfl

/-- The classifier's bias as a row. -/
theorem out4_biasRow : after hostOps4 Fv (Proc.devRef .tc main_v60) = shapeCast S1x10 (Fv (Proc.devRef .tc main_arg7)) shapeCasts_S10_S1x10 := by
  after_results; rfl

end Cert.KernelIdeal.Stretch

end
-- ==== Proof.Layouts.lean ====
/-
  A vector laid out as a one-row matrix, or as a one-column matrix: the reshape and the broadcast agree.

  Casting `x : [n]` to `[1, n]` keeps entry `t` at `(0, t)`, and so does broadcasting it along axis 1 into `[1, n]`;
  casting `x : [a]` to `[a, 1]` keeps entry `r` at `(r, 0)`, and so does broadcasting it along axis 0 into `[a, 1]`.
  In both cases the two operations read the same entry of `x` at every index.
-/
import Idealize.ShloMosaic.Lib.Pipeline.Value
import Idealize.ShloMosaic.Lib.ValueIdx

namespace Cert.Layouts

open Idealize.ShloMosaic Idealize.ShloMosaic.ValueIdx

variable {α : Type}

/-- A vector as a one-row matrix: the reshape is the broadcast along axis 1. -/
theorem shapeCast_row_eq_broadcastInDim {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by have := (i 0).isLt; have e : (i 0).val < 1 := this; omega
  have e2 := shapeCast_apply x h1 i (ix1 (i 1 : Fin n)) (by
    rw [Shape.rowMajor_val_two, Shape.rowMajor_val_one]; show (i 1).val = (i 0).val * n + (i 1).val; rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

/-- A vector as a one-column matrix: the reshape is the broadcast along axis 0. -/
theorem shapeCast_col_eq_broadcastInDim {a : Nat} (x : (⟨1, ![a]⟩ : Shape).Idx → α)
    (h1 : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h1 = broadcastInDim ⟨2, ![a, 1]⟩ ![0] hd x := by
  funext i
  have h0 : (i 1).val = 0 := by have := (i 1).isLt; have e : (i 1).val < 1 := this; omega
  have e2 := shapeCast_apply x h1 i (ix1 (i 0 : Fin a)) (by
    rw [Shape.rowMajor_val_two, Shape.rowMajor_val_one]; show (i 0).val = (i 0).val * 1 + (i 1).val; rw [h0]; omega)
  have e3 := broadcastInDim_apply ![0] hd x i (ix1 (i 0 : Fin a)) (by
    intro b
    match b with
    | ⟨0, _⟩ =>
      show (i 0).val = if a = 1 then 0 else (i 0).val
      split
      · have := (i 0).isLt; have e : (i 0).val < a := this; omega
      · rfl)
  exact e2.trans e3.symm

end Cert.Layouts
-- ==== Proof.KernelValue.lean ====
/-
  The idealized kernel program's result as the model of the argument arrays.

  The boundary contents `Gen.W1 … Gen.W9` are followed from the launch memory, buffer by buffer, for the buffers a later
  segment reads: a host stretch by its reading (KernelStretch.lean), a region by what its output array ends holding —
  the five region facts, taken here as hypotheses `hR0 … hR4` in exactly the form the region modules prove them —, and
  every other buffer by the fact that the segment does not write it. The kernel passes the self-loop weights as an
  `[N, 1]` column and each bias as a one-row matrix, by reshapes; the reference broadcasts the same vectors into those
  layouts; the two agree (Layouts.lean), so the last boundary's result array is `Forms.model` of the arguments.
-/
import proofs.«161765_j77506979823837_1_alg».proof.Proof.KernelStretch
import proofs.«161765_j77506979823837_1_alg».proof.Proof.Layouts

set_option maxRecDepth 16384

noncomputable section

namespace Cert.KernelIdeal.ValueV

open Idealize.ShloMosaic Idealize.ShloMosaic.TcCoe Idealize.SL.Sem Idealize.ShloMosaic.StableHlo
open Cert.KernelIdeal Cert.KernelIdeal.Gen Cert.ReferenceIdeal.Forms Cert.KernelIdeal.Stretch

variable (m : (ℓ : Loc nD τ sig) → Buf (Elt Ideal) ℓ) (ρ : Dev nD → PrngReg) (c : Dev nD)

/-! ## The argument arrays and the stage values, named -/

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)

/-- Sources, targets, edge weights, and the self-loop weights as the kernel lays them out (an `[N, 1]` column). -/
def src : Ends := srcOf (X1 m c)
def dst : Ends := dstOf (X1 m c)
def nrm : FVec Ideal Cert.ReferenceIdeal.S3200000 .f32 := edgeNorm (src m c) (dst m c)
def selfW : FVec Ideal Cert.ReferenceIdeal.S100000 .f32 := mulf (degInv (dst m c)) (degInv (dst m c))
def selfCol : FVec Ideal S100000x1 .f32 := shapeCast S100000x1 (selfW m c) shapeCasts_S100000_S100000x1
/-- The two layers' products, neighbour sums and outputs, and the result, as the kernel computes them. -/
def h1 : FVec Ideal Cert.ReferenceIdeal.S100000x64 .f32 := lin1 (X0 m c) (X2 m c)
def agg1 : FVec Ideal Cert.ReferenceIdeal.S100000x64 .f32 := hop64 (h1 m c) (src m c) (dst m c) (nrm m c)
def y1 : FVec Ideal Cert.ReferenceIdeal.S100000x64 .f32 := fin1At (agg1 m c) (h1 m c) (selfCol m c) (shapeCast S1x64 (X3 m c) shapeCasts_S64_S1x64)
def h2 : FVec Ideal Cert.ReferenceIdeal.S100000x32 .f32 := lin2 (y1 m c) (X4 m c)
def agg2 : FVec Ideal Cert.ReferenceIdeal.S100000x32 .f32 := hop32 (h2 m c) (src m c) (dst m c) (nrm m c)
def y2 : FVec Ideal Cert.ReferenceIdeal.S100000x32 .f32 := fin2At (agg2 m c) (h2 m c) (selfCol m c) (shapeCast S1x32 (X5 m c) shapeCasts_S32_S1x32)
def out : FVec Ideal Cert.ReferenceIdeal.S100000x10 .f32 := clsAt (y2 m c) (X6 m c) (shapeCast S1x10 (X7 m c) shapeCasts_S10_S1x10)

/-! ## The layouts agree: the kernel's result is the model -/

theorem y1_eq : y1 m c = layer1 (X0 m c) (X1 m c) (X2 m c) (X3 m c) := by
  unfold y1 layer1 fin1 agg1 h1 nrm selfCol selfW src dst
  rw [Cert.Layouts.shapeCast_col_eq_broadcastInDim _ shapeCasts_S100000_S100000x1 Cert.ReferenceIdeal.Gen.bcast_S100000_S100000x1_0,
    Cert.Layouts.shapeCast_row_eq_broadcastInDim _ shapeCasts_S64_S1x64 Cert.ReferenceIdeal.Gen.bcast_S64_S1x64_1]

theorem y2_eq : y2 m c = layer2 (layer1 (X0 m c) (X1 m c) (X2 m c) (X3 m c)) (X1 m c) (X4 m c) (X5 m c) := by
  unfold y2 layer2 fin2 agg2 h2 nrm selfCol selfW src dst
  rw [y1_eq, Cert.Layouts.shapeCast_col_eq_broadcastInDim _ shapeCasts_S100000_S100000x1 Cert.ReferenceIdeal.Gen.bcast_S100000_S100000x1_0,
    Cert.Layouts.shapeCast_row_eq_broadcastInDim _ shapeCasts_S32_S1x32 Cert.ReferenceIdeal.Gen.bcast_S32_S1x32_1]

theorem out_eq : out m c = model (X0 m c) (X1 m c) (X2 m c) (X3 m c) (X4 m c) (X5 m c) (X6 m c) (X7 m c) := by
  unfold out model cls
  rw [y2_eq, Cert.Layouts.shapeCast_row_eq_broadcastInDim _ shapeCasts_S10_S1x10 Cert.ReferenceIdeal.Gen.bcast_S10_S1x10_1]

/-! ## A buffer no segment in between writes keeps its contents -/

section Keep
variable (r : Ref sig .tc)

theorem up2 (h0 : ∀ w, Pipeline.arrRef spec0 w ≠ r) : W2 m ρ c (Proc.devRef .tc r) = W1 m ρ c (Proc.devRef .tc r) :=
  W2_of_ne m ρ c r h0
theorem up3 (h0 : ∀ w, Pipeline.arrRef spec0 w ≠ r) (h1 : r ∉ wr1) : W3 m ρ c (Proc.devRef .tc r) = W1 m ρ c (Proc.devRef .tc r) :=
  (pass1 (W2 m ρ c) r h1).trans (up2 m ρ c r h0)
theorem up4 (h0 : ∀ w, Pipeline.arrRef spec0 w ≠ r) (h1 : r ∉ wr1) (h2 : ∀ w, Pipeline.arrRef spec1 w ≠ r) :
    W4 m ρ c (Proc.devRef .tc r) = W1 m ρ c (Proc.devRef .tc r) :=
  (W4_of_ne m ρ c r h2).trans (up3 m ρ c r h0 h1)
theorem up5 (h0 : ∀ w, Pipeline.arrRef spec0 w ≠ r) (h1 : r ∉ wr1) (h2 : ∀ w, Pipeline.arrRef spec1 w ≠ r) (h3 : ∀ w, Pipeline.arrRef spec2 w ≠ r) :
    W5 m ρ c (Proc.devRef .tc r) = W1 m ρ c (Proc.devRef .tc r) :=
  (W5_of_ne m ρ c r h3).trans (up4 m ρ c r h0 h1 h2)
theorem up6 (h0 : ∀ w, Pipeline.arrRef spec0 w ≠ r) (h1 : r ∉ wr1) (h2 : ∀ w, Pipeline.arrRef spec1 w ≠ r) (h3 : ∀ w, Pipeline.arrRef spec2 w ≠ r)
    (h4 : r ∉ wr3) : W6 m ρ c (Proc.devRef .tc r) = W1 m ρ c (Proc.devRef .tc r) :=
  (pass3 (W5 m ρ c) r h4).trans (up5 m ρ c r h0 h1 h2 h3)
theorem up7 (h0 : ∀ w, Pipeline.arrRef spec0 w ≠ r) (h1 : r ∉ wr1) (h2 : ∀ w, Pipeline.arrRef spec1 w ≠ r) (h3 : ∀ w, Pipeline.arrRef spec2 w ≠ r)
    (h4 : r ∉ wr3) (h5 : ∀ w, Pipeline.arrRef spec3 w ≠ r) : W7 m ρ c (Proc.devRef .tc r) = W1 m ρ c (Proc.devRef .tc r) :=
  (W7_of_ne m ρ c r h5).trans (up6 m ρ c r h0 h1 h2 h3 h4)
theorem up8 (h0 : ∀ w, Pipeline.arrRef spec0 w ≠ r) (h1 : r ∉ wr1) (h2 : ∀ w, Pipeline.arrRef spec1 w ≠ r) (h3 : ∀ w, Pipeline.arrRef spec2 w ≠ r)
    (h4 : r ∉ wr3) (h5 : ∀ w, Pipeline.arrRef spec3 w ≠ r) (h6 : r ∉ wr4) : W8 m ρ c (Proc.devRef .tc r) = W1 m ρ c (Proc.devRef .tc r) :=
  (pass4 (W7 m ρ c) r h6).trans (up7 m ρ c r h0 h1 h2 h3 h4 h5)

theorem keep3 (h1 : r ∉ wr1) : W3 m ρ c (Proc.devRef .tc r) = W2 m ρ c (Proc.devRef .tc r) := pass1 (W2 m ρ c) r h1
theorem keep6 (h4 : r ∉ wr3) : W6 m ρ c (Proc.devRef .tc r) = W5 m ρ c (Proc.devRef .tc r) := pass3 (W5 m ρ c) r h4
theorem keep8 (h6 : r ∉ wr4) : W8 m ρ c (Proc.devRef .tc r) = W7 m ρ c (Proc.devRef .tc r) := pass4 (W7 m ρ c) r h6

/-- An argument array at the first boundary is as launched. -/
theorem atLaunch (h : r ∉ wr0) : W1 m ρ c (Proc.devRef .tc r) = W0 m ρ c (Proc.devRef .tc r) := pass0 (W0 m ρ c) r h

end Keep

/-! ## The boundaries, buffer by buffer -/

theorem b1_src : W1 m ρ c (Proc.devRef .tc main_v1) = src m c := out0_src (W0 m ρ c)
theorem b1_dst : W1 m ρ c (Proc.devRef .tc main_v3) = dst m c := out0_dst (W0 m ρ c)
theorem b1_nrm : W1 m ρ c (Proc.devRef .tc main_v25) = nrm m c := out0_norm (W0 m ρ c)
theorem b1_selfCol : W1 m ρ c (Proc.devRef .tc main_v27) = selfCol m c := out0_selfCol (W0 m ρ c)

section Regions
variable
  (hR0 : ∀ (V : (c : Dev nD) → (b : Ref sig .tc) → Buf (Elt Ideal) ((c : Thread nD τ).loc b)) (c : Dev nD), (dat0 (F := Ideal) V c).arrAt 2 cfg0.N = lin1 (V c main_arg0) (V c main_arg2))
  (hR1 : ∀ (V : (c : Dev nD) → (b : Ref sig .tc) → Buf (Elt Ideal) ((c : Thread nD τ).loc b)) (c : Dev nD), (dat1 (F := Ideal) V c).arrAt 4 cfg1.N = fin1At (V c main_v41) (V c main_v28) (V c main_v27) (V c main_v42))
  (hR2 : ∀ (V : (c : Dev nD) → (b : Ref sig .tc) → Buf (Elt Ideal) ((c : Thread nD τ).loc b)) (c : Dev nD), (dat2 (F := Ideal) V c).arrAt 2 cfg2.N = lin2 (V c main_v43) (V c main_arg4))
  (hR3 : ∀ (V : (c : Dev nD) → (b : Ref sig .tc) → Buf (Elt Ideal) ((c : Thread nD τ).loc b)) (c : Dev nD), (dat3 (F := Ideal) V c).arrAt 4 cfg3.N = fin2At (V c main_v57) (V c main_v44) (V c main_v27) (V c main_v58))
  (hR4 : ∀ (V : (c : Dev nD) → (b : Ref sig .tc) → Buf (Elt Ideal) ((c : Thread nD τ).loc b)) (c : Dev nD), (dat4 (F := Ideal) V c).arrAt 3 cfg4.N = clsAt (V c main_v59) (V c main_arg6) (V c main_v60))

include hR0 in
/-- After the first product region: `h1 = x · W1`. -/
theorem b2_h1 : W2 m ρ c (Proc.devRef .tc main_v28) = h1 m c := by
  refine (W2_arr m ρ c 2).trans ((hR0 (V1 m ρ) c).trans ?_)
  show lin1 (W1 m ρ c (Proc.devRef .tc main_arg0)) (W1 m ρ c (Proc.devRef .tc main_arg2)) = _
  rw [atLaunch m ρ c main_arg0 (by decide), atLaunch m ρ c main_arg2 (by decide)]
  all_goals rfl

include hR0 in
/-- After the stretch before the first finalize region: the first neighbour sum. -/
theorem b3_agg : W3 m ρ c (Proc.devRef .tc main_v41) = agg1 m c := by
  refine (out1_agg (W2 m ρ c)).trans ?_
  rw [b2_h1 m ρ c hR0, up2 m ρ c main_v1 (by decide), up2 m ρ c main_v3 (by decide), up2 m ρ c main_v25 (by decide),
    b1_src, b1_dst, b1_nrm]
  all_goals rfl

/-- … and the first bias as a row. -/
theorem b3_bias : W3 m ρ c (Proc.devRef .tc main_v42) = shapeCast S1x64 (X3 m c) shapeCasts_S64_S1x64 := by
  refine (out1_biasRow (W2 m ρ c)).trans ?_
  rw [up2 m ρ c main_arg3 (by decide), atLaunch m ρ c main_arg3 (by decide)]
  all_goals rfl

include hR0 hR1 in
/-- After the first finalize region: the first layer's output. -/
theorem b4_y1 : W4 m ρ c (Proc.devRef .tc main_v43) = y1 m c := by
  refine (W4_arr m ρ c 4).trans ((hR1 (V3 m ρ) c).trans ?_)
  show fin1At (W3 m ρ c (Proc.devRef .tc main_v41)) (W3 m ρ c (Proc.devRef .tc main_v28)) (W3 m ρ c (Proc.devRef .tc main_v27))
    (W3 m ρ c (Proc.devRef .tc main_v42)) = _
  rw [b3_agg m ρ c hR0, b3_bias, keep3 m ρ c main_v28 (by decide), b2_h1 m ρ c hR0,
    up3 m ρ c main_v27 (by decide) (by decide), b1_selfCol]
  all_goals rfl

include hR0 hR1 hR2 in
/-- After the second product region: `h2 = y1 · W2`. -/
theorem b5_h2 : W5 m ρ c (Proc.devRef .tc main_v44) = h2 m c := by
  refine (W5_arr m ρ c 2).trans ((hR2 (V4 m ρ) c).trans ?_)
  show lin2 (W4 m ρ c (Proc.devRef .tc main_v43)) (W4 m ρ c (Proc.devRef .tc main_arg4)) = _
  rw [b4_y1 m ρ c hR0 hR1, up4 m ρ c main_arg4 (by decide) (by decide) (by decide), atLaunch m ρ c main_arg4 (by decide)]
  all_goals rfl

include hR0 hR1 hR2 in
/-- After the stretch before the second finalize region: the second neighbour sum. -/
theorem b6_agg : W6 m ρ c (Proc.devRef .tc main_v57) = agg2 m c := by
  refine (out3_agg (W5 m ρ c)).trans ?_
  rw [b5_h2 m ρ c hR0 hR1 hR2, up5 m ρ c main_v1 (by decide) (by decide) (by decide) (by decide),
    up5 m ρ c main_v3 (by decide) (by decide) (by decide) (by decide), up5 m ρ c main_v25 (by decide) (by decide) (by decide) (by decide),
    b1_src, b1_dst, b1_nrm]
  all_goals rfl

/-- … and the second bias as a row. -/
theorem b6_bias : W6 m ρ c (Proc.devRef .tc main_v58) = shapeCast S1x32 (X5 m c) shapeCasts_S32_S1x32 := by
  refine (out3_biasRow (W5 m ρ c)).trans ?_
  rw [up5 m ρ c main_arg5 (by decide) (by decide) (by decide) (by decide), atLaunch m ρ c main_arg5 (by decide)]
  all_goals rfl

/-- The self-loop column is an INPUT of the first finalize region: the region leaves an input window's array as entered. -/
theorem selfCol_through_fin1 : W4 m ρ c (Proc.devRef .tc main_v27) = W3 m ρ c (Proc.devRef .tc main_v27) :=
  (W4_arr m ρ c 2).trans (((dat1 (V3 m ρ) c).arrAt_in 2 rfl _).trans (A_eq1 (V3 m ρ) c 2))

/-- So it reaches the second finalize region unchanged. -/
theorem b6_selfCol : W6 m ρ c (Proc.devRef .tc main_v27) = selfCol m c :=
  (keep6 m ρ c main_v27 (by decide)).trans ((W5_of_ne m ρ c main_v27 (by decide)).trans ((selfCol_through_fin1 m ρ c).trans
    ((up3 m ρ c main_v27 (by decide) (by decide)).trans (b1_selfCol m ρ c))))

include hR0 hR1 hR2 hR3 in
/-- After the second finalize region: the second layer's output. -/
theorem b7_y2 : W7 m ρ c (Proc.devRef .tc main_v59) = y2 m c := by
  refine (W7_arr m ρ c 4).trans ((hR3 (V6 m ρ) c).trans ?_)
  show fin2At (W6 m ρ c (Proc.devRef .tc main_v57)) (W6 m ρ c (Proc.devRef .tc main_v44)) (W6 m ρ c (Proc.devRef .tc main_v27))
    (W6 m ρ c (Proc.devRef .tc main_v58)) = _
  rw [b6_agg m ρ c hR0 hR1 hR2, b6_bias, keep6 m ρ c main_v44 (by decide), b5_h2 m ρ c hR0 hR1 hR2,
    b6_selfCol]
  all_goals rfl

/-- After the last stretch: the classifier's bias as a row. -/
theorem b8_bias : W8 m ρ c (Proc.devRef .tc main_v60) = shapeCast S1x10 (X7 m c) shapeCasts_S10_S1x10 := by
  refine (out4_biasRow (W7 m ρ c)).trans ?_
  rw [up7 m ρ c main_arg7 (by decide) (by decide) (by decide) (by decide) (by decide) (by decide), atLaunch m ρ c main_arg7 (by decide)]
  all_goals rfl

include hR0 hR1 hR2 hR3 hR4 in
/-- After the classifier region: the result array is the kernel's result `out`. -/
theorem b9_out : W9 m ρ c (Proc.devRef .tc main_v61) = out m c := by
  refine (W9_arr m ρ c 3).trans ((hR4 (V8 m ρ) c).trans ?_)
  show clsAt (W8 m ρ c (Proc.devRef .tc main_v59)) (W8 m ρ c (Proc.devRef .tc main_arg6)) (W8 m ρ c (Proc.devRef .tc main_v60)) = _
  rw [keep8 m ρ c main_v59 (by decide), b7_y2 m ρ c hR0 hR1 hR2 hR3, b8_bias,
    up8 m ρ c main_arg6 (by decide) (by decide) (by decide) (by decide) (by decide) (by decide) (by decide), atLaunch m ρ c main_arg6 (by decide)]
  all_goals rfl

include hR0 hR1 hR2 hR3 hR4 in
/-- The result array after the run is the model of the argument arrays. -/
theorem value : W9 m ρ c (Proc.devRef .tc main_v61)
    = model (X0 m c) (X1 m c) (X2 m c) (X3 m c) (X4 m c) (X5 m c) (X6 m c) (X7 m c) :=
  (b9_out m ρ c hR0 hR1 hR2 hR3 hR4).trans (out_eq m c)

end Regions

end Cert.KernelIdeal.ValueV

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  The first layer's dense product, from row blocks to the whole array.

  The region multiplies x : [100000, 128] by w : [128, 64] in ten steps. Step t takes rows 10000·t … 10000·t + 9999 of x
  and all of w, and writes rows 10000·t … 10000·t + 9999 of the result: entry (p, j) of what it writes is the sum over
  k < 128 of x(10000·t + p, k) · w(k, j) (at the ideal values the change of float format on the way into the product is
  the identity, and a product into the zero accumulator is the plain sum of products). An entry of row r of the result
  therefore depends on row r of x and column j of w only, the row blocks are the restrictions of ONE function of x and w,
  every row r lies in the block of step r / 10000, and so the array ends holding that function — which is the host's
  general dot of x and w with the same dimension numbers, read entry by entry.
-/
import proofs.«161765_j77506979823837_1_alg».proof.Proof.Gen.KernelIdeal.Frame
import proofs.«161765_j77506979823837_1_alg».proof.Proof.RefForms
import proofs.«161765_j77506979823837_1_alg».proof.Proof.LibMatmul
import Idealize.ShloMosaic.Lib.ValueIdx
import Idealize.ShloMosaic.Lib.Pipeline.Value
import Idealize.ShloMosaic.PureOps.Ideal.Laws

open scoped BigOperators

noncomputable section

namespace Cert.KernelIdeal.Region0

open Idealize.ShloMosaic Idealize.ShloMosaic.TcCoe Idealize.SL.Sem Idealize.ShloMosaic.Pipeline
open Cert.KernelIdeal Cert.KernelIdeal.Gen Cert.ReferenceIdeal.Forms
open Idealize.ShloMosaic.ValueIdx

/-! ## The product as one function of the two arrays -/

/-- Entry (r, j) of x · w: the sum over k of x(r, k) · w(k, j). -/
def prodAt (x : FVec Ideal S100000x128 .f32) (w : FVec Ideal S128x64 .f32) (r : Fin 100000) (j : Fin 64) : EReal :=
  ∑ k : Fin 128, x (ix2 r k) * w (ix2 k j)

/-- The whole product x · w, entry by entry. -/
def prod (x : FVec Ideal S100000x128 .f32) (w : FVec Ideal S128x64 .f32) : FVec Ideal S100000x64 .f32 :=
  fun i => prodAt x w (i 0) (i 1)

/-- The host's general dot with "contract axis 1 of x with axis 0 of w, no batch axis" is that product. -/
theorem prod_eq_lin1 (x : FVec Ideal S100000x128 .f32) (w : FVec Ideal S128x64 .f32) : prod x w = lin1 x w := by
  funext i
  obtain ⟨r, j, rfl⟩ : ∃ (r : Fin 100000) (j : Fin 64), i = ix2 r j := ⟨i 0, i 1, eq_ix2 i⟩
  exact (Cert.MatOps.dotGeneral_plain_apply none x w r j).symm

/-! ## One step's arithmetic at an entry -/

/-- Entry (p, j) of what a step computes from its block X of rows and the whole w: the sum over k of X(p, k) · w(k, j). -/
theorem payload_apply (X : Vec Ideal S10000x128 .f32) (W : Vec Ideal S128x64 .f32) (p : Fin 10000) (j : Fin 64) :
    k0_pay1 X W (ix2 p j) = ∑ k : Fin 128, X (ix2 p k) * W (ix2 k j) := by
  unfold k0_pay1
  exact Cert.MatOps.matmul_plain_zero_apply none (truncf .bf16 X bitsLt_bf16_f32) (truncf .bf16 W bitsLt_bf16_f32) p j

/-- The same at an index not yet split into its coordinates. -/
theorem payload_at (X : Vec Ideal S10000x128 .f32) (W : Vec Ideal S128x64 .f32) (y : S10000x64.Idx) :
    k0_pay1 X W y = ∑ k : Fin 128, X (ix2 (y 0) k) * W (ix2 k (y 1)) := by
  obtain ⟨p, j, rfl⟩ : ∃ (p : Fin 10000) (j : Fin 64), y = ix2 p j := ⟨y 0, y 1, eq_ix2 y⟩
  exact payload_apply X W p j

/-- If X is rows 10000·t … of x and W is w, then entry y of the step's result is entry i of x · w, where i is y moved
    down by 10000·t rows. -/
theorem rows_block_eq (x : FVec Ideal S100000x128 .f32) (w : FVec Ideal S128x64 .f32) (X : Vec Ideal S10000x128 .f32) (W : Vec Ideal S128x64 .f32) (t : Nat)
    (hX : ∀ (z : S10000x128.Idx) (i : S100000x128.Idx), (i 0).val = t * 10000 + (z 0).val → (i 1).val = (z 1).val → X z = x i)
    (hW : ∀ z : S128x64.Idx, W z = w z)
    (y : S10000x64.Idx) (i : S100000x64.Idx) (h0 : (i 0).val = t * 10000 + (y 0).val) (h1 : (i 1).val = (y 1).val) :
    k0_pay1 X W y = prod x w i := by
  refine (payload_at X W y).trans ?_
  show ∑ k : Fin 128, X (ix2 (y 0) k) * W (ix2 k (y 1)) = ∑ k : Fin 128, x (ix2 (i 0) k) * w (ix2 k (i 1))
  have hj : (y 1 : Fin 64) = i 1 := Fin.ext h1.symm
  refine Finset.sum_congr rfl fun k _ => ?_
  rw [hX (ix2 (y 0) k) (ix2 (i 0) k) h0 rfl, hW, hj]

/-! ## The blocks of the three arrays at step t -/

theorem zero_offsets : (![0, 0] : Fin 2 → Nat) = fun _ => 0 := funext fun a => by fin_cases a <;> rfl

/-- Step t reads block (t, 0) of x, block (0, 0) of w, and writes block (t, 0) of the result. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- The block of x at step t is rows 10000·t … 10000·t + 9999 of x: a block's coordinate in the array is the block
    index times the block's size plus the coordinate inside the block. -/
theorem rows_of_x (t : Fin cfg0.N) (z : S10000x128.Idx) (i : S100000x128.Idx)
    (h0 : (i 0).val = t.val * 10000 + (z 0).val) (h1 : (i 1).val = (z 1).val) :
    (iblk0 (F := Ideal) V c 0 t : Vec Ideal S10000x128 .f32) z = (V c main_arg0 : S100000x128.Idx → EReal) i := by
  obtain ⟨e0, e1, -⟩ := block_index t
  unfold iblk0
  rw [View.read_apply]
  show V c main_arg0 _ = V c main_arg0 _
  refine congrArg _ ?_
  funext a
  apply Fin.ext
  match a with
  | ⟨0, _⟩ => show win0_0.index t (0 : Fin 2) * 10000 + 1 * (z 0).val = (i 0).val; omega
  | ⟨1, _⟩ => show win0_0.index t (1 : Fin 2) * 128 + 1 * (z 1).val = (i 1).val; omega

/-- The block of w at every step is all of w. -/
theorem whole_w (t : Fin cfg0.N) (z : S128x64.Idx) :
    (iblk0 (F := Ideal) V c 1 t : Vec Ideal S128x64 .f32) z = (V c main_arg2 : S128x64.Idx → EReal) z := by
  obtain ⟨-, -, e2, e3, -⟩ := block_index t
  unfold iblk0
  rw [View.read_apply]
  show V c main_arg2 _ = V c main_arg2 _
  refine congrArg _ ?_
  funext a
  apply Fin.ext
  match a with
  | ⟨0, _⟩ => show win0_1.index t (0 : Fin 2) * 128 + 1 * (z 0).val = (z 0).val; omega
  | ⟨1, _⟩ => show win0_1.index t (1 : Fin 2) * 64 + 1 * (z 1).val = (z 1).val; omega

/-! ## From the blocks to the array -/

/-- What step t writes back is rows 10000·t … 10000·t + 9999 of x · w: the step loads its two blocks whole, stores its
    result whole, and the result's entry y sits in the array at row 10000·t + y₀, column y₁. -/
theorem written_back (t : Fin cfg0.N) :
    (dat0 (F := Ideal) V c).flushed 2 t = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x64) zero_offsets]
  obtain ⟨-, -, -, -, e4, e5⟩ := block_index t
  funext y
  refine rows_block_eq (V c main_arg0) (V c main_arg2) (iblk0 (F := Ideal) V c 0 t) (iblk0 (F := Ideal) V c 1 t) t.val
    (rows_of_x V c t) (whole_w V c t) y _ ?_ ?_
  · show win0_2.index t (0 : Fin 2) * 10000 + 1 * (y 0).val = t.val * 10000 + (y 0).val; omega
  · show win0_2.index t (1 : Fin 2) * 64 + 1 * (y 1).val = (y 1).val; omega

/-- An entry of the result array is in step t's block iff each coordinate is in the block's range on its axis. -/
theorem mem_rows (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Every entry is written: row r lies in the block of step r / 10000, and every step writes back. -/
theorem rows_cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, e4, e5⟩ := block_index ⟨(i 0).val / 10000, ht⟩
  refine ⟨⟨(i 0).val / 10000, ht⟩, flush0_2 _, ?_⟩
  rw [mem_rows]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The result array ends holding the reference's dense product of the two input arrays. -/
theorem final : (dat0 (F := Ideal) V c).arrAt 2 cfg0.N = lin1 (V c main_arg0) (V c main_arg2) := by
  rw [← prod_eq_lin1]
  exact (dat0 (F := Ideal) V c).arrAt_eq_of_cover 2 (prod (V c main_arg0) (V c main_arg2)) (fun t _ => written_back V c t) rows_cover

end Cert.KernelIdeal.Region0

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Region1.lean ====
/-
  The first layer's finishing region. Each of its ten points takes rows 10000·t … 10000·t + 9999 of the neighbour sum
  agg, of the dense product h and of the self-loop column d, the whole bias row b, and leaves in its output block
        max ((agg(r, j) + h(r, j) · d(r, 0)) + b(0, j)) 0        at row r = 10000·t + p, column j.
  That is entry (r, j) of the layer's finishing function of the four whole arrays, so the ten blocks, which tile the
  100000 rows, make the output array that function.
-/
import proofs.«161765_j77506979823837_1_alg».proof.Proof.Gen.KernelIdeal.Frame
import proofs.«161765_j77506979823837_1_alg».proof.Proof.RefForms
import proofs.«161765_j77506979823837_1_alg».proof.Proof.LibKeepdims
import Idealize.ShloMosaic.Lib.ValueIdx
import Idealize.ShloMosaic.Lib.Pipeline.Value

noncomputable section

namespace Cert.KernelIdeal.Region1

open Idealize.ShloMosaic Idealize.ShloMosaic.TcCoe Idealize.SL.Sem Idealize.ShloMosaic.Pipeline
open Cert.KernelIdeal Cert.KernelIdeal.Gen Cert.ReferenceIdeal.Forms
open Idealize.ShloMosaic.ValueIdx Idealize.ShloMosaic.Keepdims

/-! ## The layout operations at an index -/

/-- A [1, b] row copied down the a rows of an [a, b] block reads, at (p, j), the row's entry j. -/
theorem rowTo_apply {α : Type} {a b : ℕ} (v : (⟨2, ![1, b]⟩ : Shape).Idx → α) (h : (⟨2, ![1, b]⟩ : Shape).Broadcasts ⟨2, ![a, b]⟩)
    (p : Fin a) (j : Fin b) (u : Fin 1) : broadcastTo ⟨2, ![a, b]⟩ v h (ix2 p j) = v (ix2 u j) := by
  refine broadcastTo_apply v h (ix2 p j) (ix2 u j) fun ax => ?_
  match ax with
  | ⟨0, _⟩ =>
    show u.val = if (1 : ℕ) = 1 then 0 else p.val
    rw [if_pos rfl]; omega
  | ⟨1, _⟩ =>
    show j.val = if b = 1 then 0 else j.val
    split
    · have := j.isLt; omega
    · rfl

/-- The host's copy of an [a, 1] column along the b columns of [a, b] reads, at (r, j), the column's entry of row r. -/
theorem colInDim_apply {α : Type} {a b : ℕ} (v : (⟨2, ![a, 1]⟩ : Shape).Idx → α)
    (h : (⟨2, ![a, 1]⟩ : Shape).BroadcastsInDim ⟨2, ![a, b]⟩ ![0, 1]) (r : Fin a) (j : Fin b) (u : Fin 1) :
    broadcastInDim ⟨2, ![a, b]⟩ ![0, 1] h v (ix2 r j) = v (ix2 r u) := by
  refine broadcastInDim_apply _ h v (ix2 r j) (ix2 r u) fun ax => ?_
  match ax with
  | ⟨0, _⟩ =>
    show r.val = if a = 1 then 0 else r.val
    split
    · have := r.isLt; omega
    · rfl
  | ⟨1, _⟩ =>
    show u.val = if (1 : ℕ) = 1 then 0 else j.val
    rw [if_pos rfl]; omega

/-- The host's copy of a [1, b] row down the a rows of [a, b] reads, at (r, j), the row's entry j. -/
theorem rowInDim_apply {α : Type} {a b : ℕ} (v : (⟨2, ![1, b]⟩ : Shape).Idx → α)
    (h : (⟨2, ![1, b]⟩ : Shape).BroadcastsInDim ⟨2, ![a, b]⟩ ![0, 1]) (r : Fin a) (j : Fin b) (u : Fin 1) :
    broadcastInDim ⟨2, ![a, b]⟩ ![0, 1] h v (ix2 r j) = v (ix2 u j) := by
  refine broadcastInDim_apply _ h v (ix2 r j) (ix2 u j) fun ax => ?_
  match ax with
  | ⟨0, _⟩ =>
    show u.val = if (1 : ℕ) = 1 then 0 else r.val
    rw [if_pos rfl]; omega
  | ⟨1, _⟩ =>
    show j.val = if b = 1 then 0 else j.val
    split
    · have := j.isLt; omega
    · rfl

/-! ## The finishing function and the body's arithmetic at an index -/

/-- Entry (r, j) of the layer's finishing function: the neighbour sum plus the node's own term h · d, plus the bias,
    clamped below at the zero word. -/
theorem fin1At_apply (agg h : FVec Ideal S100000x64 .f32) (d2 : FVec Ideal S100000x1 .f32) (b2 : FVec Ideal S1x64 .f32)
    (r : Fin 100000) (j : Fin 64) :
    fin1At agg h d2 b2 (ix2 r j)
      = max ((agg (ix2 r j) + h (ix2 r j) * d2 (ix2 r 0)) + b2 (ix2 0 j)) (Ideal.ofBits .f32 0x00000000#32) := by
  unfold fin1At
  rw [maximumf_apply, addf_apply, addf_apply, mulf_apply, colInDim_apply d2 _ r j 0, rowInDim_apply b2 _ r j 0]
  rfl

/-- Entry (p, j) of what the body computes from its four blocks: the same expression of the blocks' entries. -/
theorem pay_apply (x0 x1 : Vec Ideal S10000x64 .f32) (x2 : Vec Ideal S10000x1 .f32) (x3 : Vec Ideal S1x64 .f32)
    (p : Fin 10000) (j : Fin 64) :
    k1_pay1 x0 x1 x2 x3 (ix2 p j)
      = max ((x0 (ix2 p j) + x1 (ix2 p j) * x2 (ix2 p 0)) + x3 (ix2 0 j)) (Ideal.ofBits .f32 0x00000000#32) := by
  unfold k1_pay1
  simp only [shapeCast_self]
  rw [maximumf_apply, addf_apply, addf_apply, mulf_apply, broadcastTo_a1_ab_apply x2 _ p j 0, rowTo_apply x3 _ p j 0]
  rfl

/-! ## From blocks to the array -/

theorem hz : (![0, 0] : Fin 2 → Nat) = fun _ => 0 := funext fun a => by fin_cases a <;> rfl

/-- The block indices over the ten points: the three row-blocked inputs and the output sit at block (t, 0), the bias
    row at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b)) (c : Dev nD)

/-- Entry (p, j) of the neighbour sum's block at point t is entry (10000·t + p, j) of the array. -/
theorem aggBlk_apply (t : Fin cfg1.N) (p : Fin 10000) (j : Fin 64) (r : Fin 100000) (hr : r.val = 10000 * t.val + p.val) :
    iblk1 V c 0 t (ix2 p j) = V c main_v41 (ix2 r j) := by
  obtain ⟨e0, e1, -⟩ := idx_facts t
  unfold iblk1
  rw [View.read_apply]
  show V c main_v41 (((cfg1.win 0).blk t).view.emb (ix2 p j)) = V c main_v41 (ix2 r j)
  refine congrArg (V c main_v41) (funext fun a => Fin.ext ?_)
  match a with
  | ⟨0, _⟩ => show win1_0.index t (0 : Fin 2) * 10000 + 1 * p.val = r.val; omega
  | ⟨1, _⟩ => show win1_0.index t (1 : Fin 2) * 64 + 1 * j.val = j.val; omega

/-- Entry (p, j) of the dense product's block at point t is entry (10000·t + p, j) of the array. -/
theorem hBlk_apply (t : Fin cfg1.N) (p : Fin 10000) (j : Fin 64) (r : Fin 100000) (hr : r.val = 10000 * t.val + p.val) :
    iblk1 V c 1 t (ix2 p j) = V c main_v28 (ix2 r j) := by
  obtain ⟨-, -, e0, e1, -⟩ := idx_facts t
  unfold iblk1
  rw [View.read_apply]
  show V c main_v28 (((cfg1.win 1).blk t).view.emb (ix2 p j)) = V c main_v28 (ix2 r j)
  refine congrArg (V c main_v28) (funext fun a => Fin.ext ?_)
  match a with
  | ⟨0, _⟩ => show win1_1.index t (0 : Fin 2) * 10000 + 1 * p.val = r.val; omega
  | ⟨1, _⟩ => show win1_1.index t (1 : Fin 2) * 64 + 1 * j.val = j.val; omega

/-- Entry (p, 0) of the self-loop column's block at point t is entry (10000·t + p, 0) of the column. -/
theorem dBlk_apply (t : Fin cfg1.N) (p : Fin 10000) (u : Fin 1) (r : Fin 100000) (hr : r.val = 10000 * t.val + p.val) :
    iblk1 V c 2 t (ix2 p u) = V c main_v27 (ix2 r u) := by
  obtain ⟨-, -, -, -, e0, e1, -⟩ := idx_facts t
  unfold iblk1
  rw [View.read_apply]
  show V c main_v27 (((cfg1.win 2).blk t).view.emb (ix2 p u)) = V c main_v27 (ix2 r u)
  refine congrArg (V c main_v27) (funext fun a => Fin.ext ?_)
  match a with
  | ⟨0, _⟩ => show win1_2.index t (0 : Fin 2) * 10000 + 1 * p.val = r.val; omega
  | ⟨1, _⟩ => show win1_2.index t (1 : Fin 2) * 1 + 1 * u.val = u.val; omega

/-- The bias row's block is the whole row at every point. -/
theorem bBlk_apply (t : Fin cfg1.N) (u : Fin 1) (j : Fin 64) :
    iblk1 V c 3 t (ix2 u j) = V c main_v42 (ix2 u j) := by
  obtain ⟨-, -, -, -, -, -, e0, e1, -⟩ := idx_facts t
  unfold iblk1
  rw [View.read_apply]
  show V c main_v42 (((cfg1.win 3).blk t).view.emb (ix2 u j)) = V c main_v42 (ix2 u j)
  refine congrArg (V c main_v42) (funext fun a => Fin.ext ?_)
  match a with
  | ⟨0, _⟩ => show win1_3.index t (0 : Fin 2) * 1 + 1 * u.val = u.val; omega
  | ⟨1, _⟩ => show win1_3.index t (1 : Fin 2) * 64 + 1 * j.val = j.val; omega

/-- Entry (p, j) of the output's block at point t sits at (10000·t + p, j) of the output array. -/
theorem outBlk_emb (t : Fin cfg1.N) (p : Fin 10000) (j : Fin 64) (r : Fin 100000) (hr : r.val = 10000 * t.val + p.val) :
    ((cfg1.win 4).blk t).view.emb (ix2 p j) = ix2 r j := by
  obtain ⟨-, -, -, -, -, -, -, -, e0, e1⟩ := idx_facts t
  refine funext fun a => Fin.ext ?_
  match a with
  | ⟨0, _⟩ => show win1_4.index t (0 : Fin 2) * 10000 + 1 * p.val = r.val; omega
  | ⟨1, _⟩ => show win1_4.index t (1 : Fin 2) * 64 + 1 * j.val = j.val; omega

/-- What point t writes back is block t of the layer's finishing function of the four arrays. -/
theorem flushed_eq (t : Fin cfg1.N) :
    (dat1 (F := Ideal) V c).flushed 4 t
      = ((cfg1.win 4).blk t).view.read (Elt Ideal) (fin1At (V c main_v41) (V c main_v28) (V c main_v27) (V c main_v42)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  funext y
  obtain ⟨p, j, rfl⟩ : ∃ (p : Fin 10000) (j : Fin 64), y = ix2 p j := ⟨y 0, y 1, eq_ix2 y⟩
  have hN : cfg1.N = 10 := N_1
  have hp := p.isLt
  have ht := t.isLt
  obtain ⟨r, hr⟩ : ∃ r : Fin 100000, r.val = 10000 * t.val + p.val := ⟨⟨10000 * t.val + p.val, by omega⟩, rfl⟩
  refine (pay_apply _ _ _ _ p j).trans ?_
  rw [aggBlk_apply V c t p j r hr, hBlk_apply V c t p j r hr, dBlk_apply V c t p 0 r hr, bBlk_apply V c t 0 j]
  rw [View.read_apply]
  show _ = fin1At (V c main_v41) (V c main_v28) (V c main_v27) (V c main_v42) (((cfg1.win 4).blk t).view.emb (ix2 p j))
  rw [outBlk_emb t p j r hr, fin1At_apply]

/-- An index of the output array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Row r of the output array is in the block of point r / 10000: the ten blocks tile the rows. -/
theorem cover (i : S100000x64.Idx) : ∃ t : Fin cfg1.N, (cfg1.win 4).flush t = true ∧ i ∈ ((cfg1.win 4).blk t).view.set := by
  have hN : cfg1.N = 10 := N_1
  have hi0 : (i 0).val < 100000 := (i 0).isLt
  have hi1 : (i 1).val < 64 := (i 1).isLt
  obtain ⟨t, ht⟩ : ∃ t : Fin cfg1.N, t.val = (i 0).val / 10000 := ⟨⟨(i 0).val / 10000, by omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The output array after the region is the layer's finishing function of the four arrays the region found. -/
theorem final : (dat1 (F := Ideal) V c).arrAt 4 cfg1.N = fin1At (V c main_v41) (V c main_v28) (V c main_v27) (V c main_v42) :=
  (dat1 V c).arrAt_eq_of_cover 4 (fin1At (V c main_v41) (V c main_v28) (V c main_v27) (V c main_v42))
    (fun t _ => flushed_eq V c t) cover

end Cert.KernelIdeal.Region1

end
-- ==== Proof.Region2.lean ====
/-
  The second layer's dense product, from row blocks to the whole array.

  The region multiplies x : [100000, 64] by w : [64, 32] in ten steps. Step t takes rows 10000·t … 10000·t + 9999 of x
  and all of w, and writes rows 10000·t … 10000·t + 9999 of the result: entry (p, j) of what it writes is the sum over
  k < 64 of x(10000·t + p, k) · w(k, j) (at the ideal values the change of float format on the way into the product is
  the identity, as is the reshape of the block to its own shape before it, and a product into the zero accumulator is
  the plain sum of products). An entry of row r of the result therefore depends on row r of x and column j of w only,
  the row blocks are the restrictions of ONE function of x and w, every row r lies in the block of step r / 10000, and
  so the array ends holding that function — which is the host's general dot of x and w with the same dimension numbers,
  read entry by entry.
-/
import proofs.«161765_j77506979823837_1_alg».proof.Proof.Gen.KernelIdeal.Frame
import proofs.«161765_j77506979823837_1_alg».proof.Proof.RefForms
import proofs.«161765_j77506979823837_1_alg».proof.Proof.LibMatmul
import Idealize.ShloMosaic.Lib.ValueIdx
import Idealize.ShloMosaic.Lib.Pipeline.Value
import Idealize.ShloMosaic.PureOps.Ideal.Laws

open scoped BigOperators

noncomputable section

namespace Cert.KernelIdeal.Region2

open Idealize.ShloMosaic Idealize.ShloMosaic.TcCoe Idealize.SL.Sem Idealize.ShloMosaic.Pipeline
open Cert.KernelIdeal Cert.KernelIdeal.Gen Cert.ReferenceIdeal.Forms
open Idealize.ShloMosaic.ValueIdx

/-! ## The product as one function of the two arrays -/

/-- Entry (r, j) of x · w: the sum over k of x(r, k) · w(k, j). -/
def prodAt (x : FVec Ideal S100000x64 .f32) (w : FVec Ideal S64x32 .f32) (r : Fin 100000) (j : Fin 32) : EReal :=
  ∑ k : Fin 64, x (ix2 r k) * w (ix2 k j)

/-- The whole product x · w, entry by entry. -/
def prod (x : FVec Ideal S100000x64 .f32) (w : FVec Ideal S64x32 .f32) : FVec Ideal S100000x32 .f32 :=
  fun i => prodAt x w (i 0) (i 1)

/-- The host's general dot with "contract axis 1 of x with axis 0 of w, no batch axis" is that product. -/
theorem prod_eq_lin2 (x : FVec Ideal S100000x64 .f32) (w : FVec Ideal S64x32 .f32) : prod x w = lin2 x w := by
  funext i
  obtain ⟨r, j, rfl⟩ : ∃ (r : Fin 100000) (j : Fin 32), i = ix2 r j := ⟨i 0, i 1, eq_ix2 i⟩
  exact (Cert.MatOps.dotGeneral_plain_apply none x w r j).symm

/-! ## One step's arithmetic at an entry -/

/-- Entry (p, j) of what a step computes from its block X of rows and the whole w: the sum over k of X(p, k) · w(k, j). -/
theorem payload_apply (X : Vec Ideal S10000x64 .f32) (W : Vec Ideal S64x32 .f32) (p : Fin 10000) (j : Fin 32) :
    k2_pay1 X W (ix2 p j) = ∑ k : Fin 64, X (ix2 p k) * W (ix2 k j) := by
  unfold k2_pay1
  refine (Cert.MatOps.matmul_plain_zero_apply none (truncf .bf16 (shapeCast S10000x64 X shapeCasts_S10000x64_S10000x64) bitsLt_bf16_f32)
    (truncf .bf16 W bitsLt_bf16_f32) p j).trans ?_
  refine Finset.sum_congr rfl fun k _ => ?_
  show shapeCast S10000x64 X shapeCasts_S10000x64_S10000x64 (ix2 p k) * W (ix2 k j) = X (ix2 p k) * W (ix2 k j)
  rw [shapeCast_self]

/-- The same at an index not yet split into its coordinates. -/
theorem payload_at (X : Vec Ideal S10000x64 .f32) (W : Vec Ideal S64x32 .f32) (y : S10000x32.Idx) :
    k2_pay1 X W y = ∑ k : Fin 64, X (ix2 (y 0) k) * W (ix2 k (y 1)) := by
  obtain ⟨p, j, rfl⟩ : ∃ (p : Fin 10000) (j : Fin 32), y = ix2 p j := ⟨y 0, y 1, eq_ix2 y⟩
  exact payload_apply X W p j

/-- If X is rows 10000·t … of x and W is w, then entry y of the step's result is entry i of x · w, where i is y moved
    down by 10000·t rows. -/
theorem rows_block_eq (x : FVec Ideal S100000x64 .f32) (w : FVec Ideal S64x32 .f32) (X : Vec Ideal S10000x64 .f32) (W : Vec Ideal S64x32 .f32) (t : Nat)
    (hX : ∀ (z : S10000x64.Idx) (i : S100000x64.Idx), (i 0).val = t * 10000 + (z 0).val → (i 1).val = (z 1).val → X z = x i)
    (hW : ∀ z : S64x32.Idx, W z = w z)
    (y : S10000x32.Idx) (i : S100000x32.Idx) (h0 : (i 0).val = t * 10000 + (y 0).val) (h1 : (i 1).val = (y 1).val) :
    k2_pay1 X W y = prod x w i := by
  refine (payload_at X W y).trans ?_
  show ∑ k : Fin 64, X (ix2 (y 0) k) * W (ix2 k (y 1)) = ∑ k : Fin 64, x (ix2 (i 0) k) * w (ix2 k (i 1))
  have hj : (y 1 : Fin 32) = i 1 := Fin.ext h1.symm
  refine Finset.sum_congr rfl fun k _ => ?_
  rw [hX (ix2 (y 0) k) (ix2 (i 0) k) h0 rfl, hW, hj]

/-! ## The blocks of the three arrays at step t -/

theorem zero_offsets : (![0, 0] : Fin 2 → Nat) = fun _ => 0 := funext fun a => by fin_cases a <;> rfl

/-- Step t reads block (t, 0) of x, block (0, 0) of w, and writes block (t, 0) of the result. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b)) (c : Dev nD)

/-- The block of x at step t is rows 10000·t … 10000·t + 9999 of x: a block's coordinate in the array is the block
    index times the block's size plus the coordinate inside the block. -/
theorem rows_of_x (t : Fin cfg2.N) (z : S10000x64.Idx) (i : S100000x64.Idx)
    (h0 : (i 0).val = t.val * 10000 + (z 0).val) (h1 : (i 1).val = (z 1).val) :
    (iblk2 (F := Ideal) V c 0 t : Vec Ideal S10000x64 .f32) z = (V c main_v43 : S100000x64.Idx → EReal) i := by
  obtain ⟨e0, e1, -⟩ := block_index t
  unfold iblk2
  rw [View.read_apply]
  show V c main_v43 _ = V c main_v43 _
  refine congrArg _ ?_
  funext a
  apply Fin.ext
  match a with
  | ⟨0, _⟩ => show win2_0.index t (0 : Fin 2) * 10000 + 1 * (z 0).val = (i 0).val; omega
  | ⟨1, _⟩ => show win2_0.index t (1 : Fin 2) * 64 + 1 * (z 1).val = (i 1).val; omega

/-- The block of w at every step is all of w. -/
theorem whole_w (t : Fin cfg2.N) (z : S64x32.Idx) :
    (iblk2 (F := Ideal) V c 1 t : Vec Ideal S64x32 .f32) z = (V c main_arg4 : S64x32.Idx → EReal) z := by
  obtain ⟨-, -, e2, e3, -⟩ := block_index t
  unfold iblk2
  rw [View.read_apply]
  show V c main_arg4 _ = V c main_arg4 _
  refine congrArg _ ?_
  funext a
  apply Fin.ext
  match a with
  | ⟨0, _⟩ => show win2_1.index t (0 : Fin 2) * 64 + 1 * (z 0).val = (z 0).val; omega
  | ⟨1, _⟩ => show win2_1.index t (1 : Fin 2) * 32 + 1 * (z 1).val = (z 1).val; omega

/-! ## From the blocks to the array -/

/-- What step t writes back is rows 10000·t … 10000·t + 9999 of x · w: the step loads its two blocks whole, stores its
    result whole, and the result's entry y sits in the array at row 10000·t + y₀, column y₁. -/
theorem written_back (t : Fin cfg2.N) :
    (dat2 (F := Ideal) V c).flushed 2 t = ((cfg2.win 2).blk t).view.read (Elt Ideal) (prod (V c main_v43) (V c main_arg4)) := by
  show (cfg2.win 2).cut (grid2.coords t) ((dat2 (F := Ideal) V c).after 2 t) = _
  rw [after2_2]
  unfold out2_2
  rw [View.canon_unit_zero zero_offsets]
  simp only [View.ld_unit_zero (S := S10000x64) zero_offsets, View.ld_unit_zero (S := S64x32) zero_offsets]
  obtain ⟨-, -, -, -, e4, e5⟩ := block_index t
  funext y
  refine rows_block_eq (V c main_v43) (V c main_arg4) (iblk2 (F := Ideal) V c 0 t) (iblk2 (F := Ideal) V c 1 t) t.val
    (rows_of_x V c t) (whole_w V c t) y _ ?_ ?_
  · show win2_2.index t (0 : Fin 2) * 10000 + 1 * (y 0).val = t.val * 10000 + (y 0).val; omega
  · show win2_2.index t (1 : Fin 2) * 32 + 1 * (y 1).val = (y 1).val; omega

/-- An entry of the result array is in step t's block iff each coordinate is in the block's range on its axis. -/
theorem mem_rows (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v44).slice (win2_2.rect t)).set ↔ _
  rw [View.set_slice_whole, Rect.mem_set_unit]
  exact Iff.rfl

/-- Every entry is written: row r lies in the block of step r / 10000, and every step writes back. -/
theorem rows_cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  have ht : (i 0).val / 10000 < cfg2.N := by rw [hN]; omega
  obtain ⟨-, -, -, -, e4, e5⟩ := block_index ⟨(i 0).val / 10000, ht⟩
  refine ⟨⟨(i 0).val / 10000, ht⟩, flush2_2 _, ?_⟩
  rw [mem_rows]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 32 ≤ (i 1).val ∧ (i 1).val < win2_2.index ⟨(i 0).val / 10000, ht⟩ (1 : Fin 2) * 32 + 32
    rw [e5]; omega

/-- The result array ends holding the reference's dense product of the two input arrays. -/
theorem final : (dat2 (F := Ideal) V c).arrAt 2 cfg2.N = lin2 (V c main_v43) (V c main_arg4) := by
  rw [← prod_eq_lin2]
  exact (dat2 (F := Ideal) V c).arrAt_eq_of_cover 2 (prod (V c main_v43) (V c main_arg4)) (fun t _ => written_back V c t) rows_cover

end Cert.KernelIdeal.Region2

end
-- ==== Proof.Region3.lean ====
/-
  The second layer's finishing region. Each of its ten points takes rows 10000·t … 10000·t + 9999 of the neighbour sum
  agg, of the dense product h and of the self-loop column d, the whole bias row b, and leaves in its output block
        max ((agg(r, j) + h(r, j) · d(r, 0)) + b(0, j)) 0        at row r = 10000·t + p, column j.
  That is entry (r, j) of the layer's finishing function of the four whole arrays, so the ten blocks, which tile the
  100000 rows, make the output array that function.
-/
import proofs.«161765_j77506979823837_1_alg».proof.Proof.Gen.KernelIdeal.Frame
import proofs.«161765_j77506979823837_1_alg».proof.Proof.RefForms
import proofs.«161765_j77506979823837_1_alg».proof.Proof.LibKeepdims
import Idealize.ShloMosaic.Lib.ValueIdx
import Idealize.ShloMosaic.Lib.Pipeline.Value

noncomputable section

namespace Cert.KernelIdeal.Region3

open Idealize.ShloMosaic Idealize.ShloMosaic.TcCoe Idealize.SL.Sem Idealize.ShloMosaic.Pipeline
open Cert.KernelIdeal Cert.KernelIdeal.Gen Cert.ReferenceIdeal.Forms
open Idealize.ShloMosaic.ValueIdx Idealize.ShloMosaic.Keepdims

/-! ## The layout operations at an index -/

/-- A [1, b] row copied down the a rows of an [a, b] block reads, at (p, j), the row's entry j. -/
theorem rowTo_apply {α : Type} {a b : ℕ} (v : (⟨2, ![1, b]⟩ : Shape).Idx → α) (h : (⟨2, ![1, b]⟩ : Shape).Broadcasts ⟨2, ![a, b]⟩)
    (p : Fin a) (j : Fin b) (u : Fin 1) : broadcastTo ⟨2, ![a, b]⟩ v h (ix2 p j) = v (ix2 u j) := by
  refine broadcastTo_apply v h (ix2 p j) (ix2 u j) fun ax => ?_
  match ax with
  | ⟨0, _⟩ =>
    show u.val = if (1 : ℕ) = 1 then 0 else p.val
    rw [if_pos rfl]; omega
  | ⟨1, _⟩ =>
    show j.val = if b = 1 then 0 else j.val
    split
    · have := j.isLt; omega
    · rfl

/-- The host's copy of an [a, 1] column along the b columns of [a, b] reads, at (r, j), the column's entry of row r. -/
theorem colInDim_apply {α : Type} {a b : ℕ} (v : (⟨2, ![a, 1]⟩ : Shape).Idx → α)
    (h : (⟨2, ![a, 1]⟩ : Shape).BroadcastsInDim ⟨2, ![a, b]⟩ ![0, 1]) (r : Fin a) (j : Fin b) (u : Fin 1) :
    broadcastInDim ⟨2, ![a, b]⟩ ![0, 1] h v (ix2 r j) = v (ix2 r u) := by
  refine broadcastInDim_apply _ h v (ix2 r j) (ix2 r u) fun ax => ?_
  match ax with
  | ⟨0, _⟩ =>
    show r.val = if a = 1 then 0 else r.val
    split
    · have := r.isLt; omega
    · rfl
  | ⟨1, _⟩ =>
    show u.val = if (1 : ℕ) = 1 then 0 else j.val
    rw [if_pos rfl]; omega

/-- The host's copy of a [1, b] row down the a rows of [a, b] reads, at (r, j), the row's entry j. -/
theorem rowInDim_apply {α : Type} {a b : ℕ} (v : (⟨2, ![1, b]⟩ : Shape).Idx → α)
    (h : (⟨2, ![1, b]⟩ : Shape).BroadcastsInDim ⟨2, ![a, b]⟩ ![0, 1]) (r : Fin a) (j : Fin b) (u : Fin 1) :
    broadcastInDim ⟨2, ![a, b]⟩ ![0, 1] h v (ix2 r j) = v (ix2 u j) := by
  refine broadcastInDim_apply _ h v (ix2 r j) (ix2 u j) fun ax => ?_
  match ax with
  | ⟨0, _⟩ =>
    show u.val = if (1 : ℕ) = 1 then 0 else r.val
    rw [if_pos rfl]; omega
  | ⟨1, _⟩ =>
    show j.val = if b = 1 then 0 else j.val
    split
    · have := j.isLt; omega
    · rfl

/-! ## The finishing function and the body's arithmetic at an index -/

/-- Entry (r, j) of the layer's finishing function: the neighbour sum plus the node's own term h · d, plus the bias,
    clamped below at the zero word. -/
theorem fin2At_apply (agg h : FVec Ideal S100000x32 .f32) (d2 : FVec Ideal S100000x1 .f32) (b2 : FVec Ideal S1x32 .f32)
    (r : Fin 100000) (j : Fin 32) :
    fin2At agg h d2 b2 (ix2 r j)
      = max ((agg (ix2 r j) + h (ix2 r j) * d2 (ix2 r 0)) + b2 (ix2 0 j)) (Ideal.ofBits .f32 0x00000000#32) := by
  unfold fin2At
  rw [maximumf_apply, addf_apply, addf_apply, mulf_apply, colInDim_apply d2 _ r j 0, rowInDim_apply b2 _ r j 0]
  rfl

/-- Entry (p, j) of what the body computes from its four blocks: the same expression of the blocks' entries. -/
theorem pay_apply (x0 x1 : Vec Ideal S10000x32 .f32) (x2 : Vec Ideal S10000x1 .f32) (x3 : Vec Ideal S1x32 .f32)
    (p : Fin 10000) (j : Fin 32) :
    k3_pay1 x0 x1 x2 x3 (ix2 p j)
      = max ((x0 (ix2 p j) + x1 (ix2 p j) * x2 (ix2 p 0)) + x3 (ix2 0 j)) (Ideal.ofBits .f32 0x00000000#32) := by
  unfold k3_pay1
  simp only [shapeCast_self]
  rw [maximumf_apply, addf_apply, addf_apply, mulf_apply, broadcastTo_a1_ab_apply x2 _ p j 0, rowTo_apply x3 _ p j 0]
  rfl

/-! ## From blocks to the array -/

theorem hz : (![0, 0] : Fin 2 → Nat) = fun _ => 0 := funext fun a => by fin_cases a <;> rfl

/-- The block indices over the ten points: the three row-blocked inputs and the output sit at block (t, 0), the bias
    row at block (0, 0) at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- Entry (p, j) of the neighbour sum's block at point t is entry (10000·t + p, j) of the array. -/
theorem aggBlk_apply (t : Fin cfg3.N) (p : Fin 10000) (j : Fin 32) (r : Fin 100000) (hr : r.val = 10000 * t.val + p.val) :
    iblk3 V c 0 t (ix2 p j) = V c main_v57 (ix2 r j) := by
  obtain ⟨e0, e1, -⟩ := idx_facts t
  unfold iblk3
  rw [View.read_apply]
  show V c main_v57 (((cfg3.win 0).blk t).view.emb (ix2 p j)) = V c main_v57 (ix2 r j)
  refine congrArg (V c main_v57) (funext fun a => Fin.ext ?_)
  match a with
  | ⟨0, _⟩ => show win3_0.index t (0 : Fin 2) * 10000 + 1 * p.val = r.val; omega
  | ⟨1, _⟩ => show win3_0.index t (1 : Fin 2) * 32 + 1 * j.val = j.val; omega

/-- Entry (p, j) of the dense product's block at point t is entry (10000·t + p, j) of the array. -/
theorem hBlk_apply (t : Fin cfg3.N) (p : Fin 10000) (j : Fin 32) (r : Fin 100000) (hr : r.val = 10000 * t.val + p.val) :
    iblk3 V c 1 t (ix2 p j) = V c main_v44 (ix2 r j) := by
  obtain ⟨-, -, e0, e1, -⟩ := idx_facts t
  unfold iblk3
  rw [View.read_apply]
  show V c main_v44 (((cfg3.win 1).blk t).view.emb (ix2 p j)) = V c main_v44 (ix2 r j)
  refine congrArg (V c main_v44) (funext fun a => Fin.ext ?_)
  match a with
  | ⟨0, _⟩ => show win3_1.index t (0 : Fin 2) * 10000 + 1 * p.val = r.val; omega
  | ⟨1, _⟩ => show win3_1.index t (1 : Fin 2) * 32 + 1 * j.val = j.val; omega

/-- Entry (p, 0) of the self-loop column's block at point t is entry (10000·t + p, 0) of the column. -/
theorem dBlk_apply (t : Fin cfg3.N) (p : Fin 10000) (u : Fin 1) (r : Fin 100000) (hr : r.val = 10000 * t.val + p.val) :
    iblk3 V c 2 t (ix2 p u) = V c main_v27 (ix2 r u) := by
  obtain ⟨-, -, -, -, e0, e1, -⟩ := idx_facts t
  unfold iblk3
  rw [View.read_apply]
  show V c main_v27 (((cfg3.win 2).blk t).view.emb (ix2 p u)) = V c main_v27 (ix2 r u)
  refine congrArg (V c main_v27) (funext fun a => Fin.ext ?_)
  match a with
  | ⟨0, _⟩ => show win3_2.index t (0 : Fin 2) * 10000 + 1 * p.val = r.val; omega
  | ⟨1, _⟩ => show win3_2.index t (1 : Fin 2) * 1 + 1 * u.val = u.val; omega

/-- The bias row's block is the whole row at every point. -/
theorem bBlk_apply (t : Fin cfg3.N) (u : Fin 1) (j : Fin 32) :
    iblk3 V c 3 t (ix2 u j) = V c main_v58 (ix2 u j) := by
  obtain ⟨-, -, -, -, -, -, e0, e1, -⟩ := idx_facts t
  unfold iblk3
  rw [View.read_apply]
  show V c main_v58 (((cfg3.win 3).blk t).view.emb (ix2 u j)) = V c main_v58 (ix2 u j)
  refine congrArg (V c main_v58) (funext fun a => Fin.ext ?_)
  match a with
  | ⟨0, _⟩ => show win3_3.index t (0 : Fin 2) * 1 + 1 * u.val = u.val; omega
  | ⟨1, _⟩ => show win3_3.index t (1 : Fin 2) * 32 + 1 * j.val = j.val; omega

/-- Entry (p, j) of the output's block at point t sits at (10000·t + p, j) of the output array. -/
theorem outBlk_emb (t : Fin cfg3.N) (p : Fin 10000) (j : Fin 32) (r : Fin 100000) (hr : r.val = 10000 * t.val + p.val) :
    ((cfg3.win 4).blk t).view.emb (ix2 p j) = ix2 r j := by
  obtain ⟨-, -, -, -, -, -, -, -, e0, e1⟩ := idx_facts t
  refine funext fun a => Fin.ext ?_
  match a with
  | ⟨0, _⟩ => show win3_4.index t (0 : Fin 2) * 10000 + 1 * p.val = r.val; omega
  | ⟨1, _⟩ => show win3_4.index t (1 : Fin 2) * 32 + 1 * j.val = j.val; omega

/-- What point t writes back is block t of the layer's finishing function of the four arrays. -/
theorem flushed_eq (t : Fin cfg3.N) :
    (dat3 (F := Ideal) V c).flushed 4 t
      = ((cfg3.win 4).blk t).view.read (Elt Ideal) (fin2At (V c main_v57) (V c main_v44) (V c main_v27) (V c main_v58)) := by
  show (cfg3.win 4).cut (grid3.coords t) ((dat3 V c).after 4 t) = _
  rw [after3_4]
  unfold out3_4
  rw [View.canon_unit_zero hz]
  simp only [View.ld_unit_zero (S := S10000x32) hz, View.ld_unit_zero (S := S10000x1) hz, View.ld_unit_zero (S := S1x32) hz]
  funext y
  obtain ⟨p, j, rfl⟩ : ∃ (p : Fin 10000) (j : Fin 32), y = ix2 p j := ⟨y 0, y 1, eq_ix2 y⟩
  have hN : cfg3.N = 10 := N_3
  have hp := p.isLt
  have ht := t.isLt
  obtain ⟨r, hr⟩ : ∃ r : Fin 100000, r.val = 10000 * t.val + p.val := ⟨⟨10000 * t.val + p.val, by omega⟩, rfl⟩
  refine (pay_apply _ _ _ _ p j).trans ?_
  rw [aggBlk_apply V c t p j r hr, hBlk_apply V c t p j r hr, dBlk_apply V c t p 0 r hr, bBlk_apply V c t 0 j]
  rw [View.read_apply]
  show _ = fin2At (V c main_v57) (V c main_v44) (V c main_v27) (V c main_v58) (((cfg3.win 4).blk t).view.emb (ix2 p j))
  rw [outBlk_emb t p j r hr, fin2At_apply]

/-- An index of the output array is in point t's block iff each coordinate is in the block's range on its axis. -/
theorem mem_blk (t : Fin cfg3.N) (i : S100000x32.Idx) :
    i ∈ ((cfg3.win 4).blk t).view.set ↔ ∀ a : Fin 2, win3_4.index t a * S10000x32.size a ≤ (i a).val ∧ (i a).val < win3_4.index t a * S10000x32.size a + S10000x32.size a := by
  show i ∈ ((View.whole main_v59).slice (win3_4.rect t)).set ↔ _
  rw [View.set_slice_whole, Rect.mem_set_unit]
  exact Iff.rfl

/-- Row r of the output array is in the block of point r / 10000: the ten blocks tile the rows. -/
theorem cover (i : S100000x32.Idx) : ∃ t : Fin cfg3.N, (cfg3.win 4).flush t = true ∧ i ∈ ((cfg3.win 4).blk t).view.set := by
  have hN : cfg3.N = 10 := N_3
  have hi0 : (i 0).val < 100000 := (i 0).isLt
  have hi1 : (i 1).val < 32 := (i 1).isLt
  obtain ⟨t, ht⟩ : ∃ t : Fin cfg3.N, t.val = (i 0).val / 10000 := ⟨⟨(i 0).val / 10000, by omega⟩, rfl⟩
  obtain ⟨-, -, -, -, -, -, -, -, e0, e1⟩ := idx_facts t
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 32 ≤ (i 1).val ∧ (i 1).val < win3_4.index t (1 : Fin 2) * 32 + 32; omega

/-- The output array after the region is the layer's finishing function of the four arrays the region found. -/
theorem final : (dat3 (F := Ideal) V c).arrAt 4 cfg3.N = fin2At (V c main_v57) (V c main_v44) (V c main_v27) (V c main_v58) :=
  (dat3 V c).arrAt_eq_of_cover 4 (fin2At (V c main_v57) (V c main_v44) (V c main_v27) (V c main_v58))
    (fun t _ => flushed_eq V c t) cover

end Cert.KernelIdeal.Region3

end
-- ==== Proof.Region4Row.lean ====
/-
  One row of the classifier's log-softmax, as a function of the row's ten logits, and the two row reductions of a
  `[A, 10]` array — the lane maximum and the lane sum — read at a row.

  For a row `z` of ten extended reals: the row's maximum is the fold of `max` over the ten entries starting from the
  value of the literal that spells `-∞`; the log-softmax at entry `j` is `(z j - M) - log (∑ k, exp (z k - M))` with `M`
  that maximum. The fold never falls below its starting value, so taking `max` with the starting value once more
  changes nothing. A reduction over axis 1 of an `[A, 10]` array at row `p` ranges over the entries `(p, k)`, `k < 10`.
-/
import Idealize.ShloMosaic.PureOps.Ideal.Laws
import Idealize.ShloMosaic.Lib.ValueIdx
import Idealize.ShloMosaic.Lib.Pipeline.Value

open scoped BigOperators
noncomputable section
namespace Cert.RowLogSoftmax
open Idealize.ShloMosaic Idealize.ShloMosaic.ValueIdx

/-- The row's maximum: the fold of `max` over the ten logits from the value of the `-∞` literal. -/
def rowMax (z : Fin 10 → EReal) : EReal :=
  (Finset.univ : Finset (Fin 10)).fold max (Ideal.ofBits .f32 0xFF800000#32) z

/-- The row's log-softmax at entry `j`: the logit shifted by the row maximum, minus the logarithm of the sum of the
    exponentials of the shifted logits. -/
def rowLS (z : Fin 10 → EReal) (j : Fin 10) : EReal :=
  (z j - rowMax z) - Ideal.log (∑ k : Fin 10, Ideal.exp (z k - rowMax z))

/-- The fold starts at the literal's value and only grows: one more `max` against that value is the identity. -/
theorem max_init_rowMax (z : Fin 10 → EReal) : max (Ideal.ofBits .f32 0xFF800000#32) (rowMax z) = rowMax z :=
  max_eq_right ((Finset.le_fold_max _).2 (Or.inl le_rfl))

section Rows
variable {A : Nat}

/-- Row `p` with coordinate `k` put back on axis 1 is the entry `(p, k)`. -/
theorem lift_row (h : (⟨2, ![A, 10]⟩ : Shape).Reduces [1] (⟨1, ![A]⟩ : Shape)) (p : Fin A)
    (k : Fin ((⟨2, ![A, 10]⟩ : Shape).size 1)) : h.lift (ix1 p) k = ix2 p (⟨k.val, k.isLt⟩ : Fin 10) := by
  funext c; apply Fin.ext
  fin_cases c <;> rfl

/-- A fold of `max` over axis 1's coordinates of the entries of row `p` is the row's maximum. -/
theorem fold_row (x : (⟨2, ![A, 10]⟩ : Shape).Idx → EReal) (h : (⟨2, ![A, 10]⟩ : Shape).Reduces [1] (⟨1, ![A]⟩ : Shape)) (p : Fin A) :
    (Finset.univ : Finset (Fin ((⟨2, ![A, 10]⟩ : Shape).size 1))).fold max (Ideal.ofBits .f32 0xFF800000#32) (x ∘ h.lift (ix1 p))
      = rowMax fun k => x (ix2 p k) := by
  have hf : (x ∘ h.lift (ix1 p)) = fun k : Fin 10 => x (ix2 p k) := funext fun k => congrArg x (lift_row h p k)
  exact congrArg (fun f => Finset.fold max (Ideal.ofBits .f32 0xFF800000#32) f (Finset.univ : Finset (Fin 10))) hf

/-- The lane maximum of an `[A, 10]` vector from `-∞`, at row `p`: the row's maximum. -/
theorem laneMax_row (src : FVec Ideal ⟨2, ![A, 10]⟩ .f32) (h : (⟨2, ![A, 10]⟩ : Shape).Reduces [1] (⟨1, ![A]⟩ : Shape))
    (hφ : FKind.Formats .f32) (hacc : (0xFF800000#32 : BitVec 32) = 0xFF800000#32) (p : Fin A) :
    multiReduction (F := Ideal) .maximumf [1] ⟨1, ![A]⟩ src 0xFF800000#32 h hφ hacc (ix1 p) = rowMax fun k => src (ix2 p k) :=
  (Ideal.multiReduction_maximumf_single src 0xFF800000#32 h hφ hacc (ix1 p)).trans (fold_row src h p)

/-- The lane sum of an `[A, 10]` vector, at row `p`: the sum of the row's ten entries. -/
theorem laneSum_row (src : FVec Ideal ⟨2, ![A, 10]⟩ .f32) (h : (⟨2, ![A, 10]⟩ : Shape).Reduces [1] (⟨1, ![A]⟩ : Shape))
    (hφ : FKind.Formats .f32) (hacc : (0x00000000#32 : BitVec 32) = 0x00000000#32) (p : Fin A) :
    multiReduction (F := Ideal) .add [1] ⟨1, ![A]⟩ src 0x00000000#32 h hφ hacc (ix1 p) = ∑ k : Fin 10, src (ix2 p k) :=
  (Ideal.multiReduction_add_single src 0x00000000#32 h hφ hacc (ix1 p)).trans
    (Finset.sum_congr rfl fun k _ => congrArg src (lift_row h p k))

/-- The host's reduction with a `max` body over axis 1 from the `-∞` constant, at row `p`: the row's maximum. -/
theorem hostMax_row (x : FVec Ideal ⟨2, ![A, 10]⟩ .f32) (h' : (⟨2, ![A, 10]⟩ : Shape).ReducesTo [1] (⟨1, ![A]⟩ : Shape))
    (h : (⟨2, ![A, 10]⟩ : Shape).Reduces [1] (⟨1, ![A]⟩ : Shape)) (hu : 0 < (⟨0, ![]⟩ : Shape).numel) (p : Fin A) :
    Host.reduce FloatOps.maximumf x (constant (F := Ideal) (⟨0, ![]⟩ : Shape) .f32 0xFF800000#32) h' hu (ix1 p)
      = rowMax fun k => x (ix2 p k) :=
  (Host.reduce_eq_fold_single FloatOps.maximumf x _ h' h hu (ix1 p)).trans (fold_row x h p)

/-- The host's sum over axis 1 from the zero constant, at row `p`: the sum of the row's ten entries. -/
theorem hostSum_row (x : FVec Ideal ⟨2, ![A, 10]⟩ .f32) (h' : (⟨2, ![A, 10]⟩ : Shape).ReducesTo [1] (⟨1, ![A]⟩ : Shape))
    (h : (⟨2, ![A, 10]⟩ : Shape).Reduces [1] (⟨1, ![A]⟩ : Shape)) (hu : 0 < (⟨0, ![]⟩ : Shape).numel) (p : Fin A) :
    Host.reduceAdd (F := Ideal) x (constant (F := Ideal) (⟨0, ![]⟩ : Shape) .f32 0x00000000#32) h' hu (ix1 p)
      = ∑ k : Fin 10, x (ix2 p k) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg x (lift_row h p k)

end Rows

end Cert.RowLogSoftmax
end
-- ==== Proof.Region4Ref.lean ====
/-
  The reference's classifier stage read at an index.

  Entry `(r, j)` of the logits is the sum over `k < 32` of `x(r, k) · w(k, j)` plus the bias row's entry `j`; entry `(r, j)` of
  the log-softmax of an array `z` is the row log-softmax of row `r` of `z` at `j`: the reference's row maximum is the host's
  reduction with a `max` body from `-∞`, once more `max`ed against `-∞` (which changes nothing), and its row sum of
  exponentials is the host's sum from zero. So every entry of the classifier stage depends only on its own row of `x`.
-/
import proofs.«161765_j77506979823837_1_alg».proof.Proof.RefForms
import proofs.«161765_j77506979823837_1_alg».proof.Proof.LibMatmul
import proofs.«161765_j77506979823837_1_alg».proof.Proof.Region4Row

open scoped BigOperators
noncomputable section
namespace Cert.KernelIdeal.Region4.Ref
open Cert.ReferenceIdeal Cert.ReferenceIdeal.Gen Cert.ReferenceIdeal.Forms Idealize.ShloMosaic Idealize.ShloMosaic.ValueIdx Cert.RowLogSoftmax

/-- The reference's contraction record is the plain `[100000,32] · [32,10]` product's. -/
theorem dot_cls_eq : dot_S100000x32_S32x10_S100000x10_1_0_0_1_n_n = DotDims.plain 100000 32 10 := rfl

/-- The bias row copied down the columns, at `(r, j)`: the row's entry `j`. -/
theorem biasRow_apply (b2 : FVec Ideal S1x10 .f32) (r : Fin 100000) (j : Fin 10) :
    broadcastInDim S100000x10 ![0, 1] bcast_S1x10_S100000x10_0_1 b2 (ix2 r j) = b2 (ix2 (0 : Fin 1) j) :=
  broadcastInDim_apply _ bcast_S1x10_S100000x10_0_1 b2 (ix2 r j) (ix2 (0 : Fin 1) j) (fun a => match a with
    | ⟨0, _⟩ => rfl
    | ⟨1, _⟩ => rfl)

/-- An `[N, 1]` column copied along the rows, at `(r, j)`: the column's entry of row `r`. -/
theorem column_apply (v : FVec Ideal S100000x1 .f32) (r : Fin 100000) (j : Fin 10) :
    broadcastInDim S100000x10 ![0, 1] bcast_S100000x1_S100000x10_0_1 v (ix2 r j) = v (ix2 r (0 : Fin 1)) :=
  broadcastInDim_apply _ bcast_S100000x1_S100000x10_0_1 v (ix2 r j) (ix2 r (0 : Fin 1)) (fun a => match a with
    | ⟨0, _⟩ => rfl
    | ⟨1, _⟩ => rfl)

/-- A vector of `N` numbers laid out as an `[N, 1]` column, at `(r, 0)`: the vector's entry `r`. -/
theorem asColumn_apply (v : FVec Ideal S100000 .f32) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => rfl)

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The logits at `(r, j)`. -/
theorem logitsAt_apply (x : FVec Ideal S100000x32 .f32) (w : FVec Ideal S32x10 .f32) (b2 : FVec Ideal S1x10 .f32)
    (r : Fin 100000) (j : Fin 10) :
    logitsAt x w b2 (ix2 r j) = (∑ k : Fin 32, x (ix2 r k) * w (ix2 k j)) + b2 (ix2 (0 : Fin 1) j) := by
  unfold logitsAt
  rw [addf_apply, biasRow_apply, dot_cls_eq]
  exact congrArg (· + _) (Cert.MatOps.dotGeneral_plain_apply none x w r j)

/-- The shifted logits at `(r, j)`: the logit minus its row's maximum. -/
theorem shifted_apply (z : FVec Ideal S100000x10 .f32) (r : Fin 100000) (j : Fin 10) :
    shifted z (ix2 r j) = z (ix2 r j) - rowMax fun k => z (ix2 r k) := by
  unfold shifted
  rw [subf_apply, column_apply, asColumn_apply, maximumf_apply]
  refine congrArg (z (ix2 r j) - ·) ?_
  rw [hostMax_row z reducesTo_S100000x10_S100000_d1 (by decide) h_S_ r]
  exact max_init_rowMax _

/-- The log-softmax at `(r, j)`: the row log-softmax of row `r`. -/
theorem logSoftmax_apply (z : FVec Ideal S100000x10 .f32) (r : Fin 100000) (j : Fin 10) :
    logSoftmax z (ix2 r j) = rowLS (fun k => z (ix2 r k)) j := by
  unfold logSoftmax rowLS
  rw [subf_apply, column_apply, shifted_apply]
  refine congrArg ((z (ix2 r j) - rowMax fun k => z (ix2 r k)) - ·) ?_
  rw [hostLog_apply, asColumn_apply, hostSum_row (Host.exp (shifted z)) reducesTo_S100000x10_S100000_d1 (by decide) h_S_ r]
  refine congrArg Ideal.log (Finset.sum_congr rfl fun k _ => ?_)
  rw [hostExp_apply, shifted_apply]

/-- The classifier stage at `(r, j)`: the row log-softmax of row `r`'s logits. -/
theorem clsAt_apply (x : FVec Ideal S100000x32 .f32) (w : FVec Ideal S32x10 .f32) (b2 : FVec Ideal S1x10 .f32)
    (r : Fin 100000) (j : Fin 10) :
    clsAt x w b2 (ix2 r j)
      = rowLS (fun j' => (∑ k : Fin 32, x (ix2 r k) * w (ix2 k j')) + b2 (ix2 (0 : Fin 1) j')) j := by
  unfold clsAt
  rw [logSoftmax_apply]
  exact congrArg (fun f => rowLS f j) (funext fun j' => logitsAt_apply x w b2 r j')

end Cert.KernelIdeal.Region4.Ref
end
-- ==== Proof.Region4Pay.lean ====
/-
  The classifier body's arithmetic on one block, read at an index.

  The body computes, from a block `x` of 10000 rows, the whole weight matrix `w` and the bias row `b2`: the logits
  `x · w + b2` (the product into a zero accumulator, the row copied down the columns; changing the float format is the
  identity on the extended reals), then along each row the lane maximum from `-∞`, the shift by it, the exponentials,
  their lane sum, its logarithm, and the difference. Entry `(p, j)` of the result is the row log-softmax of the ten
  logits of row `p`, and those depend only on row `p` of `x`.
-/
import proofs.«161765_j77506979823837_1_alg».proof.Proof.Gen.KernelIdeal.Frame
import proofs.«161765_j77506979823837_1_alg».proof.Proof.LibMatmul
import proofs.«161765_j77506979823837_1_alg».proof.Proof.LibKeepdims
import proofs.«161765_j77506979823837_1_alg».proof.Proof.Region4Row
import Idealize.ShloMosaic.Lib.ValueLayout

open scoped BigOperators
noncomputable section
namespace Cert.KernelIdeal.Region4
open Idealize.ShloMosaic Idealize.ShloMosaic.ValueIdx Idealize.ShloMosaic.Keepdims Cert.KernelIdeal Cert.KernelIdeal.Gen Cert.RowLogSoftmax

/-- The body's contraction record is the plain `[10000,32] · [32,10]` product's. -/
theorem dot_blk_eq : dot_S10000x32_S32x10_S10000x10_1_0_0_1_n_n = DotDims.plain 10000 32 10 := rfl

/-- The block's logits: the product into the zero accumulator plus the bias row copied down the columns. -/
def blockLogits (x : Vec Ideal S10000x32 .f32) (w : Vec Ideal S32x10 .f32) (b2 : Vec Ideal S1x10 .f32) : FVec Ideal S10000x10 .f32 :=
  addf (matmul dot_S10000x32_S32x10_S10000x10_1_0_0_1_n_n none
      (truncf .bf16 (shapeCast S10000x32 x shapeCasts_S10000x32_S10000x32) bitsLt_bf16_f32) (truncf .bf16 w bitsLt_bf16_f32)
      (constant S10000x10 .f32 0x00000000#32))
    (broadcastTo S10000x10 (shapeCast S1x10 b2 shapeCasts_S1x10_S1x10) broadcasts_S1x10_S10000x10)

/-- A block of logits minus, along each row, the row's lane maximum from `-∞`. -/
def blockShifted (z : FVec Ideal S10000x10 .f32) : FVec Ideal S10000x10 .f32 :=
  subf z (broadcastTo S10000x10 (shapeCast S10000x1
    (multiReduction .maximumf [1] S10000 z 0xFF800000#32 reduces_S10000x10_S10000 (.inl rfl) rfl) shapeCasts_S10000_S10000x1)
    broadcasts_S10000x1_S10000x10)

/-- The block's row-wise log-softmax: the shifted logits minus the logarithm of the lane sum of their exponentials. -/
def blockLS (z : FVec Ideal S10000x10 .f32) : FVec Ideal S10000x10 .f32 :=
  subf (blockShifted z) (broadcastTo S10000x10 (log (shapeCast S10000x1
    (multiReduction .add [1] S10000 (exp (blockShifted z)) 0x00000000#32 reduces_S10000x10_S10000 (.inl rfl) rfl) shapeCasts_S10000_S10000x1))
    broadcasts_S10000x1_S10000x10)

/-- The body's arithmetic is these three stages composed. -/
theorem k4_pay1_eq (x : Vec Ideal S10000x32 .f32) (w : Vec Ideal S32x10 .f32) (b2 : Vec Ideal S1x10 .f32) :
    k4_pay1 (F := Ideal) x w b2 = blockLS (blockLogits x w b2) := rfl

/-- The block's logits at `(p, j)`. -/
theorem blockLogits_apply (x : Vec Ideal S10000x32 .f32) (w : Vec Ideal S32x10 .f32) (b2 : Vec Ideal S1x10 .f32)
    (p : Fin 10000) (j : Fin 10) :
    blockLogits x w b2 (ix2 p j) = (∑ k : Fin 32, x (ix2 p k) * w (ix2 k j)) + b2 (ix2 (0 : Fin 1) j) := by
  unfold blockLogits
  rw [addf_apply, shapeCast_self, shapeCast_self, dot_blk_eq]
  refine (congrArg (_ + ·) (broadcastTo_1b_ab_apply b2 broadcasts_S1x10_S10000x10 p j)).trans ?_
  exact congrArg (· + _) (Cert.MatOps.matmul_plain_zero_apply none _ _ p j)

/-- A column made from a vector of row values and copied along the rows, at `(p, j)`: the value of row `p`. -/
theorem rowValue_apply (v : FVec Ideal S10000 .f32) (p : Fin 10000) (j : Fin 10) :
    broadcastTo S10000x10 (shapeCast S10000x1 v shapeCasts_S10000_S10000x1) broadcasts_S10000x1_S10000x10 (ix2 p j) = v (ix1 p) :=
  (broadcastTo_a1_ab_apply _ broadcasts_S10000x1_S10000x10 p j (0 : Fin 1)).trans
    (shapeCast_a_a1_apply v shapeCasts_S10000_S10000x1 p (0 : Fin 1))

/-- The shifted block at `(p, j)`: the logit minus its row's maximum. -/
theorem blockShifted_apply (z : FVec Ideal S10000x10 .f32) (p : Fin 10000) (j : Fin 10) :
    blockShifted z (ix2 p j) = z (ix2 p j) - rowMax fun k => z (ix2 p k) := by
  unfold blockShifted
  rw [subf_apply, rowValue_apply]
  exact congrArg (z (ix2 p j) - ·) (laneMax_row z reduces_S10000x10_S10000 (.inl rfl) rfl p)

/-- The block's log-softmax at `(p, j)`: the row log-softmax of row `p`. -/
theorem blockLS_apply (z : FVec Ideal S10000x10 .f32) (p : Fin 10000) (j : Fin 10) :
    blockLS z (ix2 p j) = rowLS (fun k => z (ix2 p k)) j := by
  unfold blockLS rowLS
  rw [subf_apply, blockShifted_apply]
  refine congrArg ((z (ix2 p j) - rowMax fun k => z (ix2 p k)) - ·) ?_
  refine (broadcastTo_a1_ab_apply _ broadcasts_S10000x1_S10000x10 p j (0 : Fin 1)).trans ?_
  show Ideal.log (shapeCast S10000x1 _ shapeCasts_S10000_S10000x1 (ix2 p (0 : Fin 1))) = _
  refine congrArg Ideal.log ?_
  refine (shapeCast_a_a1_apply _ shapeCasts_S10000_S10000x1 p (0 : Fin 1)).trans ?_
  refine (laneSum_row (exp (blockShifted z)) reduces_S10000x10_S10000 (.inl rfl) rfl p).trans ?_
  refine Finset.sum_congr rfl fun k _ => ?_
  show Ideal.exp (blockShifted z (ix2 p k)) = _
  rw [blockShifted_apply]

/-- The body's arithmetic at `(p, j)`: the row log-softmax of the ten logits of row `p` of the block. -/
theorem k4_pay1_apply (x : Vec Ideal S10000x32 .f32) (w : Vec Ideal S32x10 .f32) (b2 : Vec Ideal S1x10 .f32)
    (p : Fin 10000) (j : Fin 10) :
    k4_pay1 (F := Ideal) x w b2 (ix2 p j)
      = rowLS (fun j' => (∑ k : Fin 32, x (ix2 p k) * w (ix2 k j')) + b2 (ix2 (0 : Fin 1) j')) j := by
  rw [k4_pay1_eq, blockLS_apply]
  exact congrArg (fun f => rowLS f j) (funext fun j' => blockLogits_apply x w b2 p j')

end Cert.KernelIdeal.Region4
end
-- ==== Proof.Region4.lean ====
/-
  The classifier region: the array its output window ends holding is the reference's classifier stage of the region's
  three input arrays.

  The region runs over ten points; point `t` reads rows `10000·t … 10000·t + 9999` of the `[100000, 32]` activations, the
  whole `[32, 10]` weights and the whole `[1, 10]` bias row, and writes rows `10000·t … 10000·t + 9999` of the `[100000, 10]`
  result. Entry `(p, j)` of what point `t` writes is the row log-softmax of the logits of row `p` of its block, which is row
  `10000·t + p` of the activations; entry `(10000·t + p, j)` of the reference's stage is the row log-softmax of the logits of
  that same row. So each point writes its block of the reference's stage, and the ten blocks cover the array: row `r` is
  in the block of point `r / 10000`.
-/
import proofs.«161765_j77506979823837_1_alg».proof.Proof.Gen.KernelIdeal.Frame
import proofs.«161765_j77506979823837_1_alg».proof.Proof.RefForms
import proofs.«161765_j77506979823837_1_alg».proof.Proof.Region4Ref
import proofs.«161765_j77506979823837_1_alg».proof.Proof.Region4Pay
import Idealize.ShloMosaic.Lib.Pipeline.Value

open scoped BigOperators
noncomputable section
namespace Cert.KernelIdeal.Region4
open Idealize.ShloMosaic Idealize.ShloMosaic.TcCoe Idealize.SL.Sem Idealize.ShloMosaic.Pipeline
open Cert.KernelIdeal Cert.KernelIdeal.Gen Cert.ReferenceIdeal.Forms
open Idealize.ShloMosaic.ValueIdx Cert.RowLogSoftmax

theorem zeroOffsets : (![0, 0] : Fin 2 → Nat) = fun _ => 0 := funext fun a => by fin_cases a <;> rfl

/-- The block indices of the four windows at point `t`: the activations' and the result's blocks are block `t` along the
    rows, the weights and the bias row are taken whole. -/
theorem blockIndices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Two `[10000, 10]` blocks that agree at every `(p, j)` are equal. -/
theorem block_ext (f g : (⟨2, ![10000, 10]⟩ : Shape).Idx → EReal) (h : ∀ (p : Fin 10000) (j : Fin 10), f (ix2 p j) = g (ix2 p j)) : f = g :=
  funext fun y => by rw [eq_ix2 y]; exact h _ _

/-- One entry of what a point writes against one entry of the reference's stage: the body's arithmetic on blocks `xb`,
    `wb`, `bb` at `(p, j)` is the reference's stage of `X`, `W`, `B` at `(r, j)` when row `p` of `xb` is row `r` of `X` and
    the other two blocks are the whole arrays. -/
theorem entry_eq (X : FVec Ideal S100000x32 .f32) (W : FVec Ideal S32x10 .f32) (B : FVec Ideal S1x10 .f32)
    (xb : Vec Ideal S10000x32 .f32) (wb : Vec Ideal S32x10 .f32) (bb : Vec Ideal S1x10 .f32)
    (p : Fin 10000) (j : Fin 10) (r : Fin 100000)
    (hx : ∀ k : Fin 32, xb (ix2 p k) = X (ix2 r k)) (hw : wb = W) (hb : bb = B) :
    k4_pay1 (F := Ideal) xb wb bb (ix2 p j) = clsAt X W B (ix2 r j) := by
  subst hw hb
  rw [k4_pay1_apply, Ref.clsAt_apply]
  refine congrArg (fun f => rowLS f j) (funext fun j' => ?_)
  exact congrArg (· + _) (Finset.sum_congr rfl fun k _ => by rw [hx])

variable (V : (c : Dev nD) → (b : Ref sig .tc) → Buf (Elt Ideal) ((c : Thread nD τ).loc b)) (c : Dev nD)

/-- Row `p` of the activations' block at point `t` is row `10000·t + p` of the activations. -/
theorem xblock_apply (t : Fin cfg4.N) (p : Fin 10000) (k : Fin 32) (r : Fin 100000) (hr : r.val = 10000 * t.val + p.val) :
    (iblk4 V c 0 t : Vec Ideal S10000x32 .f32) (ix2 p k) = (V c main_v59 : S100000x32.Idx → EReal) (ix2 r k) := by
  obtain ⟨e0, e1, -⟩ := blockIndices t
  show V c main_v59 (((cfg4.win 0).blk t).view.emb (ix2 p k)) = V c main_v59 (ix2 r k)
  refine congrArg (V c main_v59) (funext fun a => Fin.ext ?_)
  match a with
  | ⟨0, _⟩ => show win4_0.index t (0 : Fin 2) * 10000 + 1 * p.val = r.val; rw [e0, hr]; omega
  | ⟨1, _⟩ => show win4_0.index t (1 : Fin 2) * 32 + 1 * k.val = k.val; rw [e1]; omega

/-- The weights' block at every point is the whole weight matrix. -/
theorem wblock_eq (t : Fin cfg4.N) : (iblk4 V c 1 t : Vec Ideal S32x10 .f32) = (V c main_arg6 : S32x10.Idx → EReal) := by
  obtain ⟨-, -, e2, e3, -⟩ := blockIndices t
  funext y
  show V c main_arg6 (((cfg4.win 1).blk t).view.emb y) = V c main_arg6 y
  refine congrArg (V c main_arg6) (funext fun a => Fin.ext ?_)
  match a with
  | ⟨0, _⟩ => show win4_1.index t (0 : Fin 2) * 32 + 1 * (y 0).val = (y 0).val; rw [e2]; omega
  | ⟨1, _⟩ => show win4_1.index t (1 : Fin 2) * 10 + 1 * (y 1).val = (y 1).val; rw [e3]; omega

/-- The bias row's block at every point is the whole row. -/
theorem bblock_eq (t : Fin cfg4.N) : (iblk4 V c 2 t : Vec Ideal S1x10 .f32) = (V c main_v60 : S1x10.Idx → EReal) := by
  obtain ⟨-, -, -, -, e4, e5, -⟩ := blockIndices t
  funext y
  show V c main_v60 (((cfg4.win 2).blk t).view.emb y) = V c main_v60 y
  refine congrArg (V c main_v60) (funext fun a => Fin.ext ?_)
  match a with
  | ⟨0, _⟩ => show win4_2.index t (0 : Fin 2) * 1 + 1 * (y 0).val = (y 0).val; rw [e4]; omega
  | ⟨1, _⟩ => show win4_2.index t (1 : Fin 2) * 10 + 1 * (y 1).val = (y 1).val; rw [e5]; omega

/-- What point `t` writes back is block `t` of the reference's classifier stage of the region's input arrays. -/
theorem flushed_eq (t : Fin cfg4.N) :
    (dat4 (F := Ideal) V c).flushed 3 t
      = ((cfg4.win 3).blk t).view.read (Elt Ideal) (clsAt (V c main_v59) (V c main_arg6) (V c main_v60)) := by
  show (cfg4.win 3).cut (grid4.coords t) ((dat4 V c).after 3 t) = _
  rw [after4_3]
  unfold out4_3
  rw [View.canon_unit_zero zeroOffsets]
  simp only [View.ld_unit_zero (S := S10000x32) zeroOffsets, View.ld_unit_zero (S := S32x10) zeroOffsets,
    View.ld_unit_zero (S := S1x10) zeroOffsets]
  obtain ⟨-, -, -, -, -, -, e6, e7⟩ := blockIndices t
  have hN : cfg4.N = 10 := N_4
  have ht : t.val < 10 := hN ▸ t.isLt
  refine block_ext _ _ fun p j => ?_
  have hp : p.val < 10000 := p.isLt
  show k4_pay1 (F := Ideal) (iblk4 V c 0 t) (iblk4 V c 1 t) (iblk4 V c 2 t) (ix2 p j)
    = clsAt (V c main_v59) (V c main_arg6) (V c main_v60) (((cfg4.win 3).blk t).view.emb (ix2 p j))
  have hemb : ((cfg4.win 3).blk t).view.emb (ix2 p j) = ix2 (⟨10000 * t.val + p.val, by omega⟩ : Fin 100000) j := by
    funext a; apply Fin.ext
    match a with
    | ⟨0, _⟩ => show win4_3.index t (0 : Fin 2) * 10000 + 1 * p.val = 10000 * t.val + p.val; rw [e6]; omega
    | ⟨1, _⟩ => show win4_3.index t (1 : Fin 2) * 10 + 1 * j.val = j.val; rw [e7]; omega
  rw [hemb]
  exact entry_eq (V c main_v59) (V c main_arg6) (V c main_v60) (iblk4 V c 0 t) (iblk4 V c 1 t) (iblk4 V c 2 t) p j _
    (fun k => xblock_apply V c t p k _ rfl) (wblock_eq V c t) (bblock_eq V c t)

/-- An index of the result array is in point `t`'s block iff each coordinate is in the block's range on its axis. -/
theorem mem_block (t : Fin cfg4.N) (i : S100000x10.Idx) :
    i ∈ ((cfg4.win 3).blk t).view.set ↔ ∀ a : Fin 2, win4_3.index t a * S10000x10.size a ≤ (i a).val
      ∧ (i a).val < win4_3.index t a * S10000x10.size a + S10000x10.size a := by
  show i ∈ ((View.whole main_v61).slice (win4_3.rect t)).set ↔ _
  rw [View.set_slice_whole, Rect.mem_set_unit]
  exact Iff.rfl

/-- Every row of the result is in some point's block: row `r` in the block of point `r / 10000`. -/
theorem covered (i : S100000x10.Idx) : ∃ t : Fin cfg4.N, (cfg4.win 3).flush t = true ∧ i ∈ ((cfg4.win 3).blk t).view.set := by
  have hi0 : (i 0).val < 100000 := (i 0).isLt
  have hi1 : (i 1).val < 10 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, -, -, e6, e7⟩ := blockIndices t
  refine ⟨t, flush4_3 t, ?_⟩
  rw [mem_block]
  intro a
  match a with
  | ⟨0, _⟩ => show win4_3.index t (0 : Fin 2) * 10000 ≤ (i 0).val ∧ (i 0).val < win4_3.index t (0 : Fin 2) * 10000 + 10000; rw [e6, ht]; omega
  | ⟨1, _⟩ => show win4_3.index t (1 : Fin 2) * 10 ≤ (i 1).val ∧ (i 1).val < win4_3.index t (1 : Fin 2) * 10 + 10; rw [e7]; omega

/-- The result array after the region: the reference's classifier stage of the region's three input arrays. -/
theorem final : (dat4 (F := Ideal) V c).arrAt 3 cfg4.N = clsAt (V c main_v59) (V c main_arg6) (V c main_v60) :=
  (dat4 (F := Ideal) V c).arrAt_eq_of_cover 3 _ (fun t _ => flushed_eq V c t) covered

end Cert.KernelIdeal.Region4
end
-- ==== Proof.RefCut.lean ====
/-
  The idealized reference's line of 137 host operations, cut into five consecutive slices.

  Running a concatenation of operations is running its second part from the buffer contents the first part leaves, so
  the line may be read slice by slice: A (operations 0–33) the edge ends, the first dense product, the inverse root
  degrees and the edge weights; B (34–60) the first layer; C (61–90) the second dense product, and the degrees and edge
  weights once more; D (91–117) the second layer; E (118–136) the classifier's logits and the row-wise log-softmax.
-/
import proofs.«161765_j77506979823837_1_alg».proof.Proof.RefRun
import proofs.«161765_j77506979823837_1_alg».proof.Proof.RefStages
import Idealize.ShloMosaic.Lib.StableHlo.Run

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

/-! ## A line of operations run in two parts -/

/-- Running a concatenation is running its second part from what the first part leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- A line cut after its first `k` operations. -/
theorem after_cut (l : List (HloOp τ sig (Elt Ideal))) (k : Nat) (V : Valuation τ sig (Elt Ideal)) :
    after l V = after (l.drop k) (after (l.take k) V) := by
  rw [← after_append, List.take_append_drop]

/-! ## The five slices -/

/-- The reference's 137 operations at the extended reals. -/
abbrev all : List (HloOp τ sig (Elt Ideal)) := ValueP.ops (F := Ideal)

abbrev sA : List (HloOp τ sig (Elt Ideal)) := all.take 34
abbrev rA : List (HloOp τ sig (Elt Ideal)) := all.drop 34
abbrev sB : List (HloOp τ sig (Elt Ideal)) := rA.take 27
abbrev rB : List (HloOp τ sig (Elt Ideal)) := rA.drop 27
abbrev sC : List (HloOp τ sig (Elt Ideal)) := rB.take 30
abbrev rC : List (HloOp τ sig (Elt Ideal)) := rB.drop 30
abbrev sD : List (HloOp τ sig (Elt Ideal)) := rC.take 27
abbrev sE : List (HloOp τ sig (Elt Ideal)) := rC.drop 27

/-- The whole line is the five slices, each run from what the one before leaves. -/
theorem all_cut (Fv : Valuation τ sig (Elt Ideal)) : after all Fv = after sE (after sD (after sC (after sB (after sA Fv)))) :=
  (after_cut all 34 Fv).trans ((after_cut rA 27 _).trans ((after_cut rB 30 _).trans (after_cut rC 27 _)))

end Cert.ReferenceIdeal.RunV

end
-- ==== Proof.RefSliceA.lean ====
/-
  Slice A of the reference's line (operations 0–33), read from an arbitrary valuation of the buffers: row 0 and row 1 of the
  edge list as the source and target vectors; the first dense product; the inverse square root of one plus the number of
  edges into each node; and an edge's weight, that number at its source times that number at its target (each end looked
  up by a gather, a negative index first moved up by the number of nodes). The argument arrays read later are not written.
-/
import proofs.«161765_j77506979823837_1_alg».proof.Proof.RefCut

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

variable (Fv : Valuation τ sig (Elt Ideal))

attribute [local irreducible] Host.scatterAdd Host.gather Host.rsqrt Host.reduce Host.reduceAdd Host.exp Host.log in
set_option maxHeartbeats 4000000 in
/-- Slice A: the edge ends, the first product, the inverse root degrees and the edge weights; the arguments read later
    are untouched. -/
theorem sliceA :
    after sA Fv (Proc.devRef .tc main_v1) = srcOf (Fv (Proc.devRef .tc main_arg1))
    ∧ after sA Fv (Proc.devRef .tc main_v3) = dstOf (Fv (Proc.devRef .tc main_arg1))
    ∧ after sA Fv (Proc.devRef .tc main_v4) = lin1 (Fv (Proc.devRef .tc main_arg0)) (Fv (Proc.devRef .tc main_arg2))
    ∧ after sA Fv (Proc.devRef .tc main_v11) = degInv (dstOf (Fv (Proc.devRef .tc main_arg1)))
    ∧ after sA Fv (Proc.devRef .tc main_v26) = edgeNorm (srcOf (Fv (Proc.devRef .tc main_arg1))) (dstOf (Fv (Proc.devRef .tc main_arg1)))
    ∧ after sA Fv (Proc.devRef .tc main_arg3) = Fv (Proc.devRef .tc main_arg3)
    ∧ after sA Fv (Proc.devRef .tc main_arg4) = Fv (Proc.devRef .tc main_arg4)
    ∧ after sA Fv (Proc.devRef .tc main_arg5) = Fv (Proc.devRef .tc main_arg5)
    ∧ after sA Fv (Proc.devRef .tc main_arg6) = Fv (Proc.devRef .tc main_arg6)
    ∧ after sA Fv (Proc.devRef .tc main_arg7) = Fv (Proc.devRef .tc main_arg7) := by
  simp only [sA, all, ValueP.ops, List.take_succ_cons, List.take_zero, List.drop_succ_cons, List.drop_zero]
  refine ⟨?_, ?_, ?_, ?_, ?_, ?_, ?_, ?_, ?_, ?_⟩
  · after_results_simp; rfl
  · after_results_simp; rfl
  · after_results_simp; rfl
  · after_results_simp; rfl
  · after_results_simp; rfl
  all_goals after_results_simp

end Cert.ReferenceIdeal.RunV

end
-- ==== Proof.RefPlain.lean ====
/-
  An inlined function's operations, at the buffers themselves.

  Where the reference calls a function — the maximum with zero after each layer, the row-wise log-softmax at the end — its
  operations stand in the line with each operand typed by the tensor type of the value, and moved to and from the
  buffer's own contents type along the equation between the two types. When the tensor type IS the buffer's type and the
  equation is reflexivity, that transport is the identity, so the typed operation is the plain operation on the buffers
  with the same function. For the literal buffers of a printed program the two types agree by computation, so each
  inlined operation is an instance.
-/
import proofs.«161765_j77506979823837_1_alg».proof.Proof.RefRun
import Idealize.ShloMosaic.Lib.StableHlo.Run

noncomputable section

namespace Cert.ReferenceIdeal.RunV

open Idealize.ShloMosaic Idealize.ShloMosaic.TcCoe Idealize.SL.Sem Idealize.ShloMosaic.StableHlo
open Cert.ReferenceIdeal

variable {Val : EltTy → Type}

/-- A typed constant at a buffer of its own type is the plain constant. -/
theorem nullary_at (y : Ref sig .tc) (dy : y.space ≠ .host) (uy : y.isScoped = false) (v : y.ty.Contents Val) :
    (TRef.nullary (TRef.of (T := y.ty) y rfl dy uy) v : HloOp τ sig Val)
      = StableHlo.nullary y v (TRef.of (T := y.ty) y rfl dy uy).dev := rfl

/-- A typed one-operand operation between buffers of the value types is the plain operation. -/
theorem unary_at (x y : Ref sig .tc) (dx : x.space ≠ .host) (ux : x.isScoped = false) (dy : y.space ≠ .host) (uy : y.isScoped = false)
    (f : x.ty.Contents Val → y.ty.Contents Val) :
    (TRef.unary (TRef.of (T := x.ty) x rfl dx ux) (TRef.of (T := y.ty) y rfl dy uy) f : HloOp τ sig Val)
      = StableHlo.unary x y f (TRef.of (T := x.ty) x rfl dx ux).dev (TRef.of (T := y.ty) y rfl dy uy).dev := rfl

/-- A typed two-operand operation between buffers of the value types is the plain operation. -/
theorem binary_at (a b y : Ref sig .tc) (da : a.space ≠ .host) (ua : a.isScoped = false) (db : b.space ≠ .host) (ub : b.isScoped = false)
    (dy : y.space ≠ .host) (uy : y.isScoped = false) (f : a.ty.Contents Val → b.ty.Contents Val → y.ty.Contents Val) :
    (TRef.binary (TRef.of (T := a.ty) a rfl da ua) (TRef.of (T := b.ty) b rfl db ub) (TRef.of (T := y.ty) y rfl dy uy) f : HloOp τ sig Val)
      = StableHlo.binary a b y f (TRef.of (T := a.ty) a rfl da ua).dev (TRef.of (T := b.ty) b rfl db ub).dev
          (TRef.of (T := y.ty) y rfl dy uy).dev := rfl

end Cert.ReferenceIdeal.RunV

end
-- ==== Proof.RefSliceB.lean ====
/-
  Slice B (operations 34–60): the first layer. Rows of the product gathered at the sources, row k scaled by edge k's weight
  and summed into its target; plus the product scaled by the squared inverse root degree (the self-loop); plus the bias
  along each row; the maximum with zero. The edge ends and the argument arrays read later are not written.
-/
import proofs.«161765_j77506979823837_1_alg».proof.Proof.RefCut
import proofs.«161765_j77506979823837_1_alg».proof.Proof.RefPlain

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

variable (Fv : Valuation τ sig (Elt Ideal))

attribute [local irreducible] Host.scatterAdd Host.gather Host.rsqrt Host.reduce Host.reduceAdd Host.exp Host.log in
set_option maxHeartbeats 4000000 in
/-- Slice B: the first layer, from the product, the edge ends, the edge weights, the inverse root degrees and the bias. -/
theorem sliceB :
    after sB Fv (Proc.devRef .tc main_v48)
        = fin1 (hop64 (Fv (Proc.devRef .tc main_v4)) (Fv (Proc.devRef .tc main_v1)) (Fv (Proc.devRef .tc main_v3)) (Fv (Proc.devRef .tc main_v26))) (Fv (Proc.devRef .tc main_v4))
            (mulf (Fv (Proc.devRef .tc main_v11)) (Fv (Proc.devRef .tc main_v11))) (Fv (Proc.devRef .tc main_arg3))
    ∧ after sB Fv (Proc.devRef .tc main_v1) = Fv (Proc.devRef .tc main_v1)
    ∧ after sB Fv (Proc.devRef .tc main_v3) = Fv (Proc.devRef .tc main_v3)
    ∧ after sB Fv (Proc.devRef .tc main_arg4) = Fv (Proc.devRef .tc main_arg4)
    ∧ after sB Fv (Proc.devRef .tc main_arg5) = Fv (Proc.devRef .tc main_arg5)
    ∧ after sB Fv (Proc.devRef .tc main_arg6) = Fv (Proc.devRef .tc main_arg6)
    ∧ after sB Fv (Proc.devRef .tc main_arg7) = Fv (Proc.devRef .tc main_arg7) := by
  simp only [sB, rA, all, ValueP.ops, List.take_succ_cons, List.take_zero, List.drop_succ_cons, List.drop_zero]
  repeat (first | erw [nullary_at] | erw [unary_at] | erw [binary_at])
  refine ⟨?_, ?_, ?_, ?_, ?_, ?_, ?_⟩
  · after_results_simp; rfl
  all_goals after_results_simp

end Cert.ReferenceIdeal.RunV

end
-- ==== Proof.RefSliceC.lean ====
/-
  Slice C (operations 61–90): the second dense product, of the first layer's result, and the inverse root degrees and the
  edge weights computed once more from the same edge ends — the same functions of them as in slice A.
-/
import proofs.«161765_j77506979823837_1_alg».proof.Proof.RefCut

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

variable (Fv : Valuation τ sig (Elt Ideal))

attribute [local irreducible] Host.scatterAdd Host.gather Host.rsqrt Host.reduce Host.reduceAdd Host.exp Host.log in
set_option maxHeartbeats 4000000 in
/-- Slice C: the second product, and the inverse root degrees and edge weights once more. -/
theorem sliceC :
    after sC Fv (Proc.devRef .tc main_v49) = lin2 (Fv (Proc.devRef .tc main_v48)) (Fv (Proc.devRef .tc main_arg4))
    ∧ after sC Fv (Proc.devRef .tc main_v56) = degInv (Fv (Proc.devRef .tc main_v3))
    ∧ after sC Fv (Proc.devRef .tc main_v71) = edgeNorm (Fv (Proc.devRef .tc main_v1)) (Fv (Proc.devRef .tc main_v3))
    ∧ after sC Fv (Proc.devRef .tc main_v1) = Fv (Proc.devRef .tc main_v1)
    ∧ after sC Fv (Proc.devRef .tc main_v3) = Fv (Proc.devRef .tc main_v3)
    ∧ after sC Fv (Proc.devRef .tc main_arg5) = Fv (Proc.devRef .tc main_arg5)
    ∧ after sC Fv (Proc.devRef .tc main_arg6) = Fv (Proc.devRef .tc main_arg6)
    ∧ after sC Fv (Proc.devRef .tc main_arg7) = Fv (Proc.devRef .tc main_arg7) := by
  simp only [sC, rB, rA, all, ValueP.ops, List.take_succ_cons, List.take_zero, List.drop_succ_cons, List.drop_zero]
  refine ⟨?_, ?_, ?_, ?_, ?_, ?_, ?_, ?_⟩
  · after_results_simp; rfl
  · after_results_simp; rfl
  · after_results_simp; rfl
  all_goals after_results_simp

end Cert.ReferenceIdeal.RunV

end
-- ==== Proof.RefSliceD.lean ====
/-
  Slice D (operations 91–117): the second layer, the same stages as the first at width 32.
-/
import proofs.«161765_j77506979823837_1_alg».proof.Proof.RefCut
import proofs.«161765_j77506979823837_1_alg».proof.Proof.RefPlain

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

variable (Fv : Valuation τ sig (Elt Ideal))

attribute [local irreducible] Host.scatterAdd Host.gather Host.rsqrt Host.reduce Host.reduceAdd Host.exp Host.log in
set_option maxHeartbeats 4000000 in
/-- Slice D: the second layer. -/
theorem sliceD :
    after sD Fv (Proc.devRef .tc main_v93)
        = fin2 (hop32 (Fv (Proc.devRef .tc main_v49)) (Fv (Proc.devRef .tc main_v1)) (Fv (Proc.devRef .tc main_v3)) (Fv (Proc.devRef .tc main_v71))) (Fv (Proc.devRef .tc main_v49))
            (mulf (Fv (Proc.devRef .tc main_v56)) (Fv (Proc.devRef .tc main_v56))) (Fv (Proc.devRef .tc main_arg5))
    ∧ after sD Fv (Proc.devRef .tc main_arg6) = Fv (Proc.devRef .tc main_arg6)
    ∧ after sD Fv (Proc.devRef .tc main_arg7) = Fv (Proc.devRef .tc main_arg7) := by
  simp only [sD, rC, rB, rA, all, ValueP.ops, List.take_succ_cons, List.take_zero, List.drop_succ_cons, List.drop_zero]
  repeat (first | erw [nullary_at] | erw [unary_at] | erw [binary_at])
  refine ⟨?_, ?_, ?_⟩
  · after_results_simp; rfl
  all_goals after_results_simp

end Cert.ReferenceIdeal.RunV

end
-- ==== Proof.RefSliceE.lean ====
/-
  Slice E (operations 118–136): the classifier's logits — the product with the classifier weights plus the bias along each
  row — and their row-wise log-softmax: each row minus its maximum, minus the logarithm of the row sum of the exponentials
  of that difference.
-/
import proofs.«161765_j77506979823837_1_alg».proof.Proof.RefCut
import proofs.«161765_j77506979823837_1_alg».proof.Proof.RefPlain

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

variable (Fv : Valuation τ sig (Elt Ideal))

attribute [local irreducible] Host.scatterAdd Host.gather Host.rsqrt Host.reduce Host.reduceAdd Host.exp Host.log in
set_option maxHeartbeats 4000000 in
/-- Slice E: the classifier stage. -/
theorem sliceE :
    after sE Fv (Proc.devRef .tc main_v98) = cls (Fv (Proc.devRef .tc main_v93)) (Fv (Proc.devRef .tc main_arg6)) (Fv (Proc.devRef .tc main_arg7)) := by
  simp only [sE, rC, rB, rA, all, ValueP.ops, List.take_succ_cons, List.take_zero, List.drop_succ_cons, List.drop_zero]
  repeat (first | erw [nullary_at] | erw [unary_at] | erw [binary_at])
  after_results_simp; rfl

end Cert.ReferenceIdeal.RunV

end
-- ==== Proof.RefValue.lean ====
/-
  The idealized reference's run, with its result named.

  The five slices composed: the result buffer after the 137 operations is `Forms.model` of the eight argument arrays — the
  first layer's result is slice B's function of slice A's five values, which is `layer1`; slice C recomputes the inverse
  root degrees and edge weights as the same functions of the same edge ends, so slice D's result is `layer2` of it; slice E
  is the classifier stage. No operation writes an argument array. The run itself is the library's run of a straight line
  of host operations: every weakly fair execution terminates with each buffer at the line's fold over the launch contents.
-/
import proofs.«161765_j77506979823837_1_alg».proof.Proof.RefSliceA
import proofs.«161765_j77506979823837_1_alg».proof.Proof.RefSliceB
import proofs.«161765_j77506979823837_1_alg».proof.Proof.RefSliceC
import proofs.«161765_j77506979823837_1_alg».proof.Proof.RefSliceD
import proofs.«161765_j77506979823837_1_alg».proof.Proof.RefSliceE

set_option maxRecDepth 16384

noncomputable section

namespace Cert.ReferenceIdeal.RunV

open Idealize.ShloMosaic Idealize.ShloMosaic.TcCoe Idealize.SL.Sem Idealize.ShloMosaic.StableHlo
open Cert.ReferenceIdeal Cert.ReferenceIdeal.Gen Cert.ReferenceIdeal.Forms

variable (Fv : Valuation τ sig (Elt Ideal))

/-! ## The whole line -/

/-- The result buffer after the 137 operations is the model of the eight argument arrays. -/
theorem value : after all Fv (Proc.devRef .tc main_v98)
    = model (Fv (Proc.devRef .tc main_arg0)) (Fv (Proc.devRef .tc main_arg1)) (Fv (Proc.devRef .tc main_arg2)) (Fv (Proc.devRef .tc main_arg3))
        (Fv (Proc.devRef .tc main_arg4)) (Fv (Proc.devRef .tc main_arg5)) (Fv (Proc.devRef .tc main_arg6)) (Fv (Proc.devRef .tc main_arg7)) := by
  obtain ⟨a1, a3, a4, a11, a26, ak3, ak4, ak5, ak6, ak7⟩ := sliceA Fv
  obtain ⟨b48, bk1, bk3, bk4, bk5, bk6, bk7⟩ := sliceB (after sA Fv)
  obtain ⟨c49, c56, c71, ck1, ck3, ck5, ck6, ck7⟩ := sliceC (after sB (after sA Fv))
  obtain ⟨d93, dk6, dk7⟩ := sliceD (after sC (after sB (after sA Fv)))
  have e98 := sliceE (after sD (after sC (after sB (after sA Fv))))
  rw [all_cut, e98, d93, dk6, dk7, c49, c56, c71, ck1, ck3, ck5, ck6, ck7, b48, bk1, bk3, bk4, bk5, bk6, bk7,
    a1, a3, a4, a11, a26, ak3, ak4, ak5, ak6, ak7]
  rfl

/-! ## The arguments, and the run -/

theorem kept0 : after all Fv (Proc.devRef .tc main_arg0) = Fv (Proc.devRef .tc main_arg0) := by after_results_simp
theorem kept1 : after all Fv (Proc.devRef .tc main_arg1) = Fv (Proc.devRef .tc main_arg1) := by after_results_simp
theorem kept2 : after all Fv (Proc.devRef .tc main_arg2) = Fv (Proc.devRef .tc main_arg2) := by after_results_simp
theorem kept3 : after all Fv (Proc.devRef .tc main_arg3) = Fv (Proc.devRef .tc main_arg3) := by after_results_simp
theorem kept4 : after all Fv (Proc.devRef .tc main_arg4) = Fv (Proc.devRef .tc main_arg4) := by after_results_simp
theorem kept5 : after all Fv (Proc.devRef .tc main_arg5) = Fv (Proc.devRef .tc main_arg5) := by after_results_simp
theorem kept6 : after all Fv (Proc.devRef .tc main_arg6) = Fv (Proc.devRef .tc main_arg6) := by after_results_simp
theorem kept7 : after all Fv (Proc.devRef .tc main_arg7) = Fv (Proc.devRef .tc main_arg7) := by after_results_simp

/-- Every weakly fair execution of the reference terminates; the result buffer ends at the model of the launch
    contents of the eight argument arrays, and the argument arrays end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98)
          = model (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v98).trans (value (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c))⟩)
    (run_seq ValueP.scopedRefs_eq ValueP.scopedSems_eq defs main (fun _ => all) ValueP.main_eq (fun _ => ValueP.ops_sub) m ρ)

end Cert.ReferenceIdeal.RunV

end
-- ==== Proof.lean ====
/-
  A two-layer graph convolution with a classifier, against its plain array reference, over the extended reals.

  Both programs compute, from node features x : [100000, 128], an edge list e : [2, 3200000] and the weights and biases of
  three dense stages, the same function `Forms.model`: with d the inverse square root of each node's degree (self-loop
  counted) and an edge's weight the product of d at its two ends,
      layer(x) = max(scatter-add over targets of (gathered source rows of x·W, scaled by the edge weight) + (x·W)·d² + b, 0),
  and the result is the row-wise log-softmax of layer₂(layer₁(x))·Wc + bc.

  The kernel program computes the three dense products, the two "+ self-loop + bias, max 0" stages and the log-softmax
  stage in five row-tiled regions of ten row blocks each, and the gathers and scatter-adds on the host in between, the
  degrees and edge weights once. Each region's result array is the corresponding whole-array function of its input
  arrays (Region0 … Region4: a block is the restriction of that function to rows 10000·t … 10000·t + 9999, and the ten
  blocks cover the array); the host stretches are the reference's own operations (KernelStretch); chained through the
  segment boundaries this gives the kernel's result as `model` of the arguments (KernelValue, KernelRun).
  The reference computes the degrees and edge weights once per layer; read slice by slice it is the same `model` of its
  arguments (RefValue). No law of arithmetic is needed beyond that: the two sides are the same term of the arguments, so
  the finiteness of the inputs is never used. The idealization changes nothing that has a recorded rule, so `preserves`
  has no conjunct.
-/
import proofs.«161765_j77506979823837_1_alg».proof.Defs
import proofs.«161765_j77506979823837_1_alg».proof.Proof.Gen.Kernel
import proofs.«161765_j77506979823837_1_alg».proof.Proof.Gen.Kernel.Frame
import proofs.«161765_j77506979823837_1_alg».proof.Proof.Gen.KernelIdeal
import proofs.«161765_j77506979823837_1_alg».proof.Proof.Gen.KernelIdeal.Frame
import proofs.«161765_j77506979823837_1_alg».proof.Proof.Gen.ReferenceIdeal
import proofs.«161765_j77506979823837_1_alg».proof.Proof.Gen.Pre_finite_inputs
import proofs.«161765_j77506979823837_1_alg».proof.Proof.KernelRun
import proofs.«161765_j77506979823837_1_alg».proof.Proof.KernelValue
import proofs.«161765_j77506979823837_1_alg».proof.Proof.Region0
import proofs.«161765_j77506979823837_1_alg».proof.Proof.Region1
import proofs.«161765_j77506979823837_1_alg».proof.Proof.Region2
import proofs.«161765_j77506979823837_1_alg».proof.Proof.Region3
import proofs.«161765_j77506979823837_1_alg».proof.Proof.Region4
import proofs.«161765_j77506979823837_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.ReferenceIdeal.RunV.run m ρ),
  trivial,
  fun m ρ m' ρ' _ hagree =>
    ⟨fun c => Cert.ReferenceIdeal.Forms.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
     (θ_run (Cert.KernelIdeal.defs (F := Ideal)) _ _).mono
       (fun _ h c => ⟨(h c).1.trans (Cert.KernelIdeal.ValueV.value m ρ c Cert.KernelIdeal.Region0.final Cert.KernelIdeal.Region1.final
          Cert.KernelIdeal.Region2.final Cert.KernelIdeal.Region3.final Cert.KernelIdeal.Region4.final), (h c).2⟩)
       (Cert.KernelIdeal.RunV.run (F := Ideal) m ρ),
     (θ_run (Cert.ReferenceIdeal.defs (F := Ideal)) _ _).mono
       (fun _ h c => ⟨(h c).1.trans (by
          rw [(hagree c).1, (hagree c).2.1, (hagree c).2.2.1, (hagree c).2.2.2.1, (hagree c).2.2.2.2.1, (hagree c).2.2.2.2.2.1,
            (hagree c).2.2.2.2.2.2.1, (hagree c).2.2.2.2.2.2.2]), (h c).2⟩)
       (Cert.ReferenceIdeal.RunV.run m' ρ')⟩⟩

end Cert.Proof

end
